-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x4096 : Shape := ⟨2, ![2048, 4096]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x4096 .f32) (main_arg8 : FVec F S2048 .f32) (main_arg9 : FVec F S2048x4096 .f32) (main_arg10 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x2048 .f32) (main_arg1 : FVec F S4096x2048 .f32) (main_arg2 : FVec F S4096x2048 .f32) (main_arg3 : FVec F S2048x4096 .f32) (main_arg4 : FVec F S2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S4096x2048 : Shape := ⟨2, ![4096, 2048]⟩
abbrev S2048x4096 : Shape := ⟨2, ![2048, 4096]⟩
abbrev S2048 : Shape := ⟨1, ![2048]⟩
abbrev S2048x2048 : Shape := ⟨2, ![2048, 2048]⟩
abbrev S1x2048x2048 : Shape := ⟨3, ![1, 2048, 2048]⟩
abbrev S4x2048x2048 : Shape := ⟨3, ![4, 2048, 2048]⟩
abbrev S4x8x256x2048 : Shape := ⟨4, ![4, 8, 256, 2048]⟩
abbrev S8x4x256x2048 : Shape := ⟨4, ![8, 4, 256, 2048]⟩
abbrev S8x1024x2048 : Shape := ⟨3, ![8, 1024, 2048]⟩
abbrev S8x2048x1024 : Shape := ⟨3, ![8, 2048, 1024]⟩
abbrev S1x2048 : Shape := ⟨2, ![1, 2048]⟩
abbrev S4x2048 : Shape := ⟨2, ![4, 2048]⟩
abbrev S4x8x256 : Shape := ⟨3, ![4, 8, 256]⟩
abbrev S8x4x256 : Shape := ⟨3, ![8, 4, 256]⟩
abbrev S8x1x1024 : Shape := ⟨3, ![8, 1, 1024]⟩
abbrev S512x2048 : Shape := ⟨2, ![512, 2048]⟩
abbrev S512x256 : Shape := ⟨2, ![512, 256]⟩
abbrev S1x2048x1024 : Shape := ⟨3, ![1, 2048, 1024]⟩
abbrev S1x1x1024 : Shape := ⟨3, ![1, 1, 1024]⟩
abbrev S2048x1024 : Shape := ⟨2, ![2048, 1024]⟩
abbrev S512x1024 : Shape := ⟨2, ![512, 1024]⟩
abbrev S1x1024 : Shape := ⟨2, ![1, 1024]⟩

abbrev nBuf : Space → Nat
  | .hbm => 51
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S1x2048x2048, .f32⟩
  | .hbm, ⟨19, _⟩ => ⟨S4x2048x2048, .f32⟩
  | .hbm, ⟨20, _⟩ => ⟨S4x8x256x2048, .f32⟩
  | .hbm, ⟨21, _⟩ => ⟨S8x4x256x2048, .f32⟩
  | .hbm, ⟨22, _⟩ => ⟨S8x1024x2048, .f32⟩
  | .hbm, ⟨23, _⟩ => ⟨S8x2048x1024, .f32⟩
  | .hbm, ⟨24, _⟩ => ⟨S8x2048x1024, .bf16⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S1x2048x2048, .f32⟩
  | .hbm, ⟨30, _⟩ => ⟨S1x2048x2048, .f32⟩
  | .hbm, ⟨31, _⟩ => ⟨S1x2048x2048, .f32⟩
  | .hbm, ⟨32, _⟩ => ⟨S1x2048x2048, .f32⟩
  | .hbm, ⟨33, _⟩ => ⟨S4x2048x2048, .f32⟩
  | .hbm, ⟨34, _⟩ => ⟨S4x8x256x2048, .f32⟩
  | .hbm, ⟨35, _⟩ => ⟨S8x4x256x2048, .f32⟩
  | .hbm, ⟨36, _⟩ => ⟨S8x1024x2048, .f32⟩
  | .hbm, ⟨37, _⟩ => ⟨S8x2048x1024, .f32⟩
  | .hbm, ⟨38, _⟩ => ⟨S8x2048x1024, .bf16⟩
  | .hbm, ⟨39, _⟩ => ⟨S1x2048, .f32⟩
  | .hbm, ⟨40, _⟩ => ⟨S1x2048, .f32⟩
  | .hbm, ⟨41, _⟩ => ⟨S1x2048, .f32⟩
  | .hbm, ⟨42, _⟩ => ⟨S1x2048, .f32⟩
  | .hbm, ⟨43, _⟩ => ⟨S4x2048, .f32⟩
  | .hbm, ⟨44, _⟩ => ⟨S4x8x256, .f32⟩
  | .hbm, ⟨45, _⟩ => ⟨S8x4x256, .f32⟩
  | .hbm, ⟨46, _⟩ => ⟨S8x1x1024, .f32⟩
  | .hbm, ⟨47, _⟩ => ⟨S4096x2048, .bf16⟩
  | .hbm, ⟨48, _⟩ => ⟨S4096x2048, .bf16⟩
  | .hbm, ⟨49, _⟩ => ⟨S4096x2048, .f32⟩
  | .hbm, ⟨50, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x256, .f32⟩
  | .local _ .vmem, ⟨5, _⟩ => ⟨S512x256, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x1x1024, .f32⟩
  | .local _ .vmem, ⟨11, _⟩ => ⟨S1x1x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38_0 : Ref sig .tc := ⟨.hbm, 49, rfl⟩
abbrev main_v38_1 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S2048x4096_S2048x2048_0_0 : S2048x4096.Slices ![0, 0] S2048x2048
  bcast_S2048x2048_S1x2048x2048_1_2 : S2048x2048.BroadcastsInDim S1x2048x2048 (![1, 2] : Fin 2 → Fin S1x2048x2048.rank)
  concatenates_S1x2048x2048_S1x2048x2048_S1x2048x2048_S1x2048x2048_S4x2048x2048_d0 : Shape.Concatenates [S1x2048x2048, S1x2048x2048, S1x2048x2048, S1x2048x2048] S4x2048x2048 0
  shapeCasts_S4x2048x2048_S4x8x256x2048 : S4x2048x2048.ShapeCasts S4x8x256x2048
  transposes_S4x8x256x2048_S8x4x256x2048_1_0_2_3 : S4x8x256x2048.Transposes [1, 0, 2, 3] S8x4x256x2048
  shapeCasts_S8x4x256x2048_S8x1024x2048 : S8x4x256x2048.ShapeCasts S8x1024x2048
  transposes_S8x1024x2048_S8x2048x1024_0_2_1 : S8x1024x2048.Transposes [0, 2, 1] S8x2048x1024
  bitsLt_bf16_f32 : FTy.bits .bf16 < FTy.bits .f32
  slices_S2048x4096_S2048x2048_0_2048 : S2048x4096.Slices ![0, 2048] S2048x2048
  bcast_S2048_S1x2048_1 : S2048.BroadcastsInDim S1x2048 (![1] : Fin 1 → Fin S1x2048.rank)
  concatenates_S1x2048_S1x2048_S1x2048_S1x2048_S4x2048_d0 : Shape.Concatenates [S1x2048, S1x2048, S1x2048, S1x2048] S4x2048 0
  shapeCasts_S4x2048_S4x8x256 : S4x2048.ShapeCasts S4x8x256
  transposes_S4x8x256_S8x4x256_1_0_2 : S4x8x256.Transposes [1, 0, 2] S8x4x256
  shapeCasts_S8x4x256_S8x1x1024 : S8x4x256.ShapeCasts S8x1x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x256_S512x256_0_0 : ∀ a, (![0, 0] : Fin 2 → Nat) a + S512x256.size a ≤ S512x256.size a
  h_S512x256 : 0 < S512x256.numel
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S512x1024 : S1x1024.Broadcasts S512x1024
  slices_S512x1024_o0_0_S512x256 : S512x1024.Slices ![0, 0] S512x256
  slices_S512x1024_o0_256_S512x256 : S512x1024.Slices ![0, 256] S512x256
  slices_S512x1024_o0_512_S512x256 : S512x1024.Slices ![0, 512] S512x256
  slices_S512x1024_o0_768_S512x256 : S512x1024.Slices ![0, 768] S512x256
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x2048.size a
  hwx0_2 : ∀ i : grid0.Coords, EltTy.bits .f32 = 32 ∨ (Rect.block (s := S4096x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .bf16 = 32 ∨ (Rect.block (s := S8x2048x1024) S1x2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S8x2048x1024.size a
  hwx0_4 : ∀ i : grid0.Coords, EltTy.bits .bf16 = 32 ∨ (Rect.block (s := S8x2048x1024) S1x2048x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S4096x2048.size a
  hwx0_6 : ∀ i : grid0.Coords, EltTy.bits .f32 = 32 ∨ (Rect.block (s := S4096x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v36) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x2048x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v38_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v38_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x4096 : Shape := ⟨2, ![2048, 4096]⟩
abbrev S2048 : Shape := ⟨1, ![2048]⟩
abbrev S4096x4096 : Shape := ⟨2, ![4096, 4096]⟩
abbrev S8192x4096 : Shape := ⟨2, ![8192, 4096]⟩
abbrev S8192 : Shape := ⟨1, ![8192]⟩
abbrev S4096x8192 : Shape := ⟨2, ![4096, 8192]⟩
abbrev S1x8192 : Shape := ⟨2, ![1, 8192]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x4096, .f32⟩
  | .hbm, ⟨4, _⟩ => ⟨S2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S4096x4096, .f32⟩
  | .hbm, ⟨12, _⟩ => ⟨S8192x4096, .f32⟩
  | .hbm, ⟨13, _⟩ => ⟨S8192, .f32⟩
  | .hbm, ⟨14, _⟩ => ⟨S4096x8192, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x4096_S4096x8192_S4096x8192_1_0_0_1_n_n_wf : DotDims.WF S4096x4096 S4096x8192 S4096x8192 [1] [0] [0] [1] [] []

variable [Facts₀]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf

class Facts : Prop extends Facts₀ where

variable [Facts]
-- ==== Proof.KernelLaunch.lean ====
/-
  The kernel program as printed runs to its end without a fault and leaves its eleven argument arrays as they
  were, for any float instance; and after the run each of its two result arrays is what the grid's points wrote
  back, block by block.

  @main is thirty-eight host operations — they slice, stack, re-lay and narrow the weights and biases and narrow
  `x` and `h`, writing only their own result buffers — followed by one launch of the cell body over an 8 × 8
  grid: point (j, i) takes rows 512·i … of `x`, `h`, `c`, the j-th slab of the stacked weights and bias, and
  writes the 512 × 256 block (i, j) of the new hidden and cell arrays. The body loads its six input blocks whole,
  computes, and stores each output block whole; the loads of the two output buffers before their stores read
  values the body never uses.
-/
import proofs.«153864_j67800353735261_2_alg».proof.Proof.Gen.Kernel.Launch
import proofs.«153864_j67800353735261_2_alg».proof.Proof.Gen.Kernel.Skeleton
import proofs.«153864_j67800353735261_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch contents after the thirty-eight host operations. -/
abbrev V (c : Dev nD) (b : Ref sig .tc) : Buf (Elt F) ((c : Thread nD τ).loc b) := StableHlo.after hostOps0 (fun b => m (c, b)) b

/-- Every host operation writes a buffer that already exists. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In a final state the launch theorem describes, the arguments are unchanged: `c` is the one argument a window
    stages (an input: its array is never written); the other ten are buffers no window names, which the launch leaves
    as it found them, and no host operation wrote them before. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame from a run to the launch theorem's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

end Cert.Kernel.Cell

end
-- ==== Proof.KernelRun.lean ====
/-
  The cell body at one grid point, and the whole run.

  Handed its six input blocks (rows of `x` and `h`, a block of `c`, a slab of each stacked weight array and of
  the stacked bias) and the two output buffers at any contents, the body ends with the inputs as they were, the
  hidden buffer holding its last payload (σ(output gate) · tanh(new cell)) and the cell buffer holding the new
  cell block. Each store covers its buffer, so what the buffer held before — which the body also loads, and never
  uses — does not matter. With this at every point, the launch theorem gives the run: every execution ends, no
  fault, each result array made of the blocks written back, every other buffer as the launch found it.
-/
import proofs.«153864_j67800353735261_2_alg».proof.Proof.KernelLaunch

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S512x2048 := Rect.unit (s := S512x2048) ![0, 0] S512x2048.size inb_S512x2048_S512x2048_0_0
abbrev rBlock : Rect S512x256 := Rect.unit (s := S512x256) ![0, 0] S512x256.size inb_S512x256_S512x256_0_0
abbrev rSlab : Rect S1x2048x1024 := Rect.unit (s := S1x2048x1024) ![0, 0, 0] S1x2048x1024.size inb_S1x2048x1024_S1x2048x1024_0_0_0
abbrev rBias : Rect S1x1x1024 := Rect.unit (s := S1x1x1024) ![0, 0, 0] S1x1x1024.size inb_S1x1x1024_S1x1x1024_0_0_0

/-! ## What the body leaves in the two output buffers -/

/-- The hidden buffer after the body: its one store, of the whole buffer. -/
def hiddenBuf (x0 x1 : Vec F S512x2048 .bf16) (x2 : Vec F S512x256 .f32) (x3 x4 : Vec F S1x2048x1024 .bf16) (x5 : Vec F S1x1x1024 .f32) : Vec F S512x256 .f32 :=
  View.canon [⟨rBlock, k0_pay3 (View.ld x0 rRows) (View.ld x1 rRows) (View.ld x2 rBlock) (View.ld x3 rSlab) (View.ld x4 rSlab) (View.ld x5 rBias)⟩]

/-- The cell buffer after the body: its one store, of the whole buffer. -/
def cellBuf (x0 x1 : Vec F S512x2048 .bf16) (x2 : Vec F S512x256 .f32) (x3 x4 : Vec F S1x2048x1024 .bf16) (x5 : Vec F S1x1x1024 .f32) : Vec F S512x256 .f32 :=
  View.canon [⟨rBlock, k0_pay2 (View.ld x0 rRows) (View.ld x1 rRows) (View.ld x2 rBlock) (View.ld x3 rSlab) (View.ld x4 rSlab) (View.ld x5 rBias)⟩]

/-- One whole-buffer store covers the buffer. -/
theorem cover_block (p0 : Vec F S512x256 .f32) (y : S512x256.Idx) :
    ∃ pc ∈ ([⟨rBlock, p0⟩] : List (View.Piece (Elt F) S512x256 .f32)), y ∈ pc.1.set :=
  View.cover_of_tiled [⟨rBlock, p0⟩] S512x256.size (by rfl) y

/-! ## The body's triple -/

set_option maxHeartbeats 1000000 in
/-- The body on whole buffers: the inputs at read contents, the outputs at anything; it returns with the inputs as
    they were and the outputs at `hiddenBuf` and `cellBuf` of the inputs. -/
theorem sound_kernel (c : Dev nD) (E : Set ℕ) (i : grid0.Coords)
    (arg2 : Memref sig .tc .vmem S512x2048 .bf16) (harg2 : arg2.IsWhole) (arg3 : Memref sig .tc .vmem S512x2048 .bf16) (harg3 : arg3.IsWhole)
    (arg4 : Memref sig .tc .vmem S512x256 .f32) (harg4 : arg4.IsWhole) (arg5 : Memref sig .tc .vmem S1x2048x1024 .bf16) (harg5 : arg5.IsWhole)
    (arg6 : Memref sig .tc .vmem S1x2048x1024 .bf16) (harg6 : arg6.IsWhole) (arg7 : Memref sig .tc .vmem S1x1x1024 .f32) (harg7 : arg7.IsWhole)
    (arg8 : Memref sig .tc .vmem S512x256 .f32) (harg8 : arg8.IsWhole) (arg9 : Memref sig .tc .vmem S512x256 .f32) (harg9 : arg9.IsWhole)
    (x0 x1 : Vec F S512x2048 .bf16) (x2 : Vec F S512x256 .f32) (x3 x4 : Vec F S1x2048x1024 .bf16) (x5 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (hiddenBuf x0 x1 x2 x3 x4 x5) ∗ owns (c : Thread nD τ) arg9 fullShare (cellBuf x0 x1 x2 x3 x4 x5)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_block _)
  iexists _; isplitr
  swap; · iexact H7
  ipureintro
  exact View.read_writes_eq_canon _ _ _ (cover_block _)

/-! ## The proof data of the launch -/

/-- On core `c`: the arrays as the launch finds them; after the body at point `t` each input buffer at its block,
    the hidden and cell buffers at `hiddenBuf` and `cellBuf` of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBuf (iblk m c 0 t) (iblk m c 1 t) (iblk m c 2 t) (iblk m c 3 t) (iblk m c 4 t) (iblk m c 5 t)
    | ⟨7, _⟩ => cellBuf (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = hiddenBuf (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = cellBuf (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the launch is what the
    library computes from the proof data, and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Cell

end
-- ==== Proof.KernelIdealLaunch.lean ====
/-
  The idealized kernel program runs to its end without a fault and leaves its eleven argument arrays as they
  were, for any float instance; and after the run each of its two result arrays is what the grid's points wrote
  back, block by block.

  @main is thirty-eight host operations — they slice, stack, re-lay and narrow the weights and biases and narrow
  `x` and `h`, writing only their own result buffers — followed by one launch of the cell body over an 8 × 8
  grid: point (j, i) takes rows 512·i … of `x`, `h`, `c`, the j-th slab of the stacked weights and bias, and
  writes the 512 × 256 block (i, j) of the new hidden and cell arrays. The body loads its six input blocks whole,
  computes, and stores each output block whole; the loads of the two output buffers before their stores read
  values the body never uses.
-/
import proofs.«153864_j67800353735261_2_alg».proof.Proof.Gen.KernelIdeal.Launch
import proofs.«153864_j67800353735261_2_alg».proof.Proof.Gen.KernelIdeal.Skeleton
import proofs.«153864_j67800353735261_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s buffers when the launch is reached: the launch contents after the thirty-eight host operations. -/
abbrev V (c : Dev nD) (b : Ref sig .tc) : Buf (Elt F) ((c : Thread nD τ).loc b) := StableHlo.after hostOps0 (fun b => m (c, b)) b

/-- Every host operation writes a buffer that already exists. -/
theorem hostOps0_fresh : (hostOps0 : List (HloOp τ sig (Elt F))).Forall fun op => op.fresh = ∅ := by
  simp only [List.Forall]; repeat' constructor

/-- @main is the host operations, then the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg9`. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation before the region writes `main_arg10`. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the launch theorem's post -/

/-- In a final state the launch theorem describes, the arguments are unchanged: `c` is the one argument a window
    stages (an input: its array is never written); the other ten are buffers no window names, which the launch leaves
    as it found them, and no host operation wrote them before. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

/-- The frame from a run to the launch theorem's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_of m dats hA r h c) h

end Cert.KernelIdeal.Cell

end
-- ==== Proof.KernelIdealRun.lean ====
/-
  The cell body at one grid point, and the whole run.

  Handed its six input blocks (rows of `x` and `h`, a block of `c`, a slab of each stacked weight array and of
  the stacked bias) and the two output buffers at any contents, the body ends with the inputs as they were, the
  hidden buffer holding its last payload (σ(output gate) · tanh(new cell)) and the cell buffer holding the new
  cell block. Each store covers its buffer, so what the buffer held before — which the body also loads, and never
  uses — does not matter. With this at every point, the launch theorem gives the run: every execution ends, no
  fault, each result array made of the blocks written back, every other buffer as the launch found it.
-/
import proofs.«153864_j67800353735261_2_alg».proof.Proof.KernelIdealLaunch

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rRows : Rect S512x2048 := Rect.unit (s := S512x2048) ![0, 0] S512x2048.size inb_S512x2048_S512x2048_0_0
abbrev rBlock : Rect S512x256 := Rect.unit (s := S512x256) ![0, 0] S512x256.size inb_S512x256_S512x256_0_0
abbrev rSlab : Rect S1x2048x1024 := Rect.unit (s := S1x2048x1024) ![0, 0, 0] S1x2048x1024.size inb_S1x2048x1024_S1x2048x1024_0_0_0
abbrev rBias : Rect S1x1x1024 := Rect.unit (s := S1x1x1024) ![0, 0, 0] S1x1x1024.size inb_S1x1x1024_S1x1x1024_0_0_0

/-! ## What the body leaves in the two output buffers -/

/-- The hidden buffer after the body: its one store, of the whole buffer. -/
def hiddenBuf (x0 x1 : Vec F S512x2048 .bf16) (x2 : Vec F S512x256 .f32) (x3 x4 : Vec F S1x2048x1024 .bf16) (x5 : Vec F S1x1x1024 .f32) : Vec F S512x256 .f32 :=
  View.canon [⟨rBlock, k0_pay3 (View.ld x0 rRows) (View.ld x1 rRows) (View.ld x2 rBlock) (View.ld x3 rSlab) (View.ld x4 rSlab) (View.ld x5 rBias)⟩]

/-- The cell buffer after the body: its one store, of the whole buffer. -/
def cellBuf (x0 x1 : Vec F S512x2048 .bf16) (x2 : Vec F S512x256 .f32) (x3 x4 : Vec F S1x2048x1024 .bf16) (x5 : Vec F S1x1x1024 .f32) : Vec F S512x256 .f32 :=
  View.canon [⟨rBlock, k0_pay2 (View.ld x0 rRows) (View.ld x1 rRows) (View.ld x2 rBlock) (View.ld x3 rSlab) (View.ld x4 rSlab) (View.ld x5 rBias)⟩]

/-- One whole-buffer store covers the buffer. -/
theorem cover_block (p0 : Vec F S512x256 .f32) (y : S512x256.Idx) :
    ∃ pc ∈ ([⟨rBlock, p0⟩] : List (View.Piece (Elt F) S512x256 .f32)), y ∈ pc.1.set :=
  View.cover_of_tiled [⟨rBlock, p0⟩] S512x256.size (by rfl) y

/-! ## The body's triple -/

set_option maxHeartbeats 1000000 in
/-- The body on whole buffers: the inputs at read contents, the outputs at anything; it returns with the inputs as
    they were and the outputs at `hiddenBuf` and `cellBuf` of the inputs. -/
theorem sound_kernel (c : Dev nD) (E : Set ℕ) (i : grid0.Coords)
    (arg2 : Memref sig .tc .vmem S512x2048 .bf16) (harg2 : arg2.IsWhole) (arg3 : Memref sig .tc .vmem S512x2048 .bf16) (harg3 : arg3.IsWhole)
    (arg4 : Memref sig .tc .vmem S512x256 .f32) (harg4 : arg4.IsWhole) (arg5 : Memref sig .tc .vmem S1x2048x1024 .bf16) (harg5 : arg5.IsWhole)
    (arg6 : Memref sig .tc .vmem S1x2048x1024 .bf16) (harg6 : arg6.IsWhole) (arg7 : Memref sig .tc .vmem S1x1x1024 .f32) (harg7 : arg7.IsWhole)
    (arg8 : Memref sig .tc .vmem S512x256 .f32) (harg8 : arg8.IsWhole) (arg9 : Memref sig .tc .vmem S512x256 .f32) (harg9 : arg9.IsWhole)
    (x0 x1 : Vec F S512x2048 .bf16) (x2 : Vec F S512x256 .f32) (x3 x4 : Vec F S1x2048x1024 .bf16) (x5 : Vec F S1x1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (hiddenBuf x0 x1 x2 x3 x4 x5) ∗ owns (c : Thread nD τ) arg9 fullShare (cellBuf x0 x1 x2 x3 x4 x5)) -∗ K ⟨⟩))
      ⊢ wp frame (wpE (defs₀ (F := F)) Variants.none c none) E (cc0__lstm_kernel i arg2 harg2 arg3 harg3 arg4 harg4 arg5 harg5 arg6 harg6 arg7 harg7 arg8 harg8 arg9 harg9) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_block _)
  iexists _; isplitr
  swap; · iexact H7
  ipureintro
  exact View.read_writes_eq_canon _ _ _ (cover_block _)

/-! ## The proof data of the launch -/

/-- On core `c`: the arrays as the launch finds them; after the body at point `t` each input buffer at its block,
    the hidden and cell buffers at `hiddenBuf` and `cellBuf` of the six input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => hiddenBuf (iblk m c 0 t) (iblk m c 1 t) (iblk m c 2 t) (iblk m c 3 t) (iblk m c 4 t) (iblk m c 5 t)
    | ⟨7, _⟩ => cellBuf (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = hiddenBuf (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = cellBuf (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and the core's
    debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end each array of the launch is what the
    library computes from the proof data, and every other buffer is as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Cell

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.KernelIdealBlock.lean ====
/-
  The cell body's arithmetic, read at one entry of the block it stores.

  From its six loaded blocks — `X`, `Hp` : 512 rows of `x` and of `h`; `C` : a 512 × 256 block of `c`; `Wx`, `Wh` : one
  slab [1, 2048, 1024] of each stacked weight array; `B` : one slab [1, 1, 1024] of the stacked bias — the body forms
  the 512 × 1024 pre-activations  X·Wx + Hp·Wh + B  (two matrix products into a zero accumulator, the bias row spread
  over the rows), cuts them into four 256-column groups (input, forget, candidate, output), and stores
      new cell   = σ(forget) · C + σ(input) · tanh(candidate),
      new hidden = σ(output) · tanh(new cell).
  At row `p` and column `q` of the block each matrix product is a sum over the 2048 contracted positions.
-/
import proofs.«153864_j67800353735261_2_alg».proof.Proof.Gen.KernelIdeal.Skeleton
import proofs.«153864_j67800353735261_2_alg».proof.Proof.LibMatSum
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx

variable (X Hp : Vec Ideal S512x2048 .bf16) (C : Vec Ideal S512x256 .f32) (Wx Wh : Vec Ideal S1x2048x1024 .bf16) (B : Vec Ideal S1x1x1024 .f32)

/-- Column `o + q` of the 1024 stacked columns: column `q` of the group that starts at `o`. -/
abbrev gcol (o : Nat) (q : Fin 256) (ho : o + 256 ≤ 1024 := by decide) : Fin 1024 := ⟨o + q.val, by have := q.isLt; omega⟩

/-- The pre-activation at row `p`, stacked column `col`. -/
def blkPre (p : Fin 512) (col : Fin 1024) : EReal :=
  (∑ k : Fin 2048, (X (ix2 p k) * Wx (ix3 (0 : Fin 1) k col) : EReal)) + (∑ k : Fin 2048, (Hp (ix2 p k) * Wh (ix3 (0 : Fin 1) k col) : EReal))
    + B (ix3 (0 : Fin 1) (0 : Fin 1) col)

/-- A product of 512 rows with one weight slab, into the zero accumulator, at an entry. -/
theorem rows_times_slab (A : FVec Ideal S512x2048 .bf16) (W : FVec Ideal S1x2048x1024 .bf16) (p : Fin 512) (col : Fin 1024) :
    (matmul (F := Ideal) dot_S512x2048_S2048x1024_S512x1024_1_0_0_1_n_n none (shapeCast S512x2048 A Facts₀.shapeCasts_S512x2048_S512x2048)
        (shapeCast S2048x1024 W Facts₀.shapeCasts_S1x2048x1024_S2048x1024) (constant S512x1024 .f32 0x00000000#32) (ix2 p col) : EReal)
      = ∑ k : Fin 2048, (A (ix2 p k) * W (ix3 (0 : Fin 1) k col) : EReal) := by
  refine (MatSum.matmul_zero_entry Facts₀.dot_S512x2048_S2048x1024_S512x1024_1_0_0_1_n_n_wf none _ _ p col).trans ?_
  refine Finset.sum_congr rfl fun k _ => ?_
  rw [shapeCast_self, shapeCast_1ab_ab_apply]

/-- The bias slab spread over the rows, at an entry. -/
theorem bias_rows (B : FVec Ideal S1x1x1024 .f32) (p : Fin 512) (col : Fin 1024) :
    (broadcastTo S512x1024 (shapeCast S1x1024 B Facts₀.shapeCasts_S1x1x1024_S1x1024) Facts₀.broadcasts_S1x1024_S512x1024 (ix2 p col) : EReal)
      = B (ix3 (0 : Fin 1) (0 : Fin 1) col) := by
  rw [broadcastTo_1b_ab_apply, shapeCast_1ab_ab_apply]

/-- The 512 × 1024 pre-activations at an entry. -/
theorem pre_apply (p : Fin 512) (col : Fin 1024) : k0_pay1 (F := Ideal) X Hp Wx Wh B (ix2 p col) = blkPre X Hp Wx Wh B p col := by
  unfold k0_pay1 blkPre
  simp only [addf, Ideal.addf_def]
  rw [rows_times_slab, rows_times_slab, bias_rows]

/-- The new cell block at an entry. -/
theorem cell_apply (p : Fin 512) (q : Fin 256) :
    k0_pay2 (F := Ideal) X Hp C Wx Wh B (ix2 p q)
      = Ideal.logistic (blkPre X Hp Wx Wh B p (gcol 256 q)) * C (ix2 p q)
        + Ideal.logistic (blkPre X Hp Wx Wh B p (gcol 0 q)) * Ideal.tanh (blkPre X Hp Wx Wh B p (gcol 512 q)) := by
  unfold k0_pay2
  simp only [addf, mulf, logistic, tanh, Ideal.addf_def, Ideal.mulf_def, Ideal.logistic_def, Ideal.tanh_def]
  rw [slice2_axis1_eq, slice2_axis1_eq, slice2_axis1_eq, pre_apply, pre_apply, pre_apply]

/-- The new hidden block at an entry. -/
theorem hidden_apply (p : Fin 512) (q : Fin 256) :
    k0_pay3 (F := Ideal) X Hp C Wx Wh B (ix2 p q)
      = Ideal.logistic (blkPre X Hp Wx Wh B p (gcol 768 q)) * Ideal.tanh (k0_pay2 (F := Ideal) X Hp C Wx Wh B (ix2 p q)) := by
  unfold k0_pay3
  simp only [mulf, logistic, tanh, Ideal.mulf_def, Ideal.logistic_def, Ideal.tanh_def]
  rw [slice2_axis1_eq, pre_apply]

end Cert.KernelIdeal.Block

end
-- ==== Proof.LibFinSplit.lean ====
/-
  A finite sum over an initial segment of the naturals, cut at a point.

  For any commutative additive monoid, the sum of `f` over `Fin N` is the sum over the first `n` indices plus
  the sum over the remaining `m`, whenever `n + m = N`; the second part is indexed from zero and reads `f` at
  `n + k`. Nothing here depends on a program: it is a statement about `Fin` and `Finset.sum` only.
-/
import Mathlib.Algebra.BigOperators.Fin

namespace Cert.Lib.FinSplit

open Finset

/-- The sum over `Fin N` is the sum over the first `n` indices plus the sum over the last `m`, for `n + m = N`:
    an index below the cut is itself, an index `k` of the second part is `n + k`. -/
theorem sum_fin_split {M : Type*} [AddCommMonoid M] {N : ℕ} (n m : ℕ) (h : n + m = N) (f : Fin N → M) :
    ∑ k : Fin N, f k
      = ∑ k : Fin n, f ⟨k.val, by have := k.isLt; omega⟩ + ∑ k : Fin m, f ⟨n + k.val, by have := k.isLt; omega⟩ := by
  subst h
  exact Fin.sum_univ_add f

/-- The same cut made three times: a sum over `Fin N` with `N = n + n + n + n` is the sum of its four consecutive
    blocks of `n` indices, block `b` reading `f` at `b * n + k` (written out: `k`, `n + k`, `n + n + k`, `n + n + n + k`). -/
theorem sum_fin_four_blocks {M : Type*} [AddCommMonoid M] {N : ℕ} (n : ℕ) (h : n + n + n + n = N) (f : Fin N → M) :
    ∑ k : Fin N, f k
      = ∑ k : Fin n, f ⟨k.val, by have := k.isLt; omega⟩
        + ∑ k : Fin n, f ⟨n + k.val, by have := k.isLt; omega⟩
        + ∑ k : Fin n, f ⟨n + n + k.val, by have := k.isLt; omega⟩
        + ∑ k : Fin n, f ⟨n + n + n + k.val, by have := k.isLt; omega⟩ := by
  rw [sum_fin_split (n + n + n) n h f, sum_fin_split (n + n) n rfl (fun k : Fin (n + n + n) => f ⟨k.val, by have := k.isLt; omega⟩),
    sum_fin_split n n rfl (fun k : Fin (n + n) => f ⟨k.val, by have := k.isLt; omega⟩)]

end Cert.Lib.FinSplit
-- ==== Proof.CellSpec.lean ====
/-
  One step of a long short-term memory cell over the extended reals, as a function of its eleven arguments:
  the input rows `x`, the previous hidden rows `h`, the previous cell rows `c` (each 4096 × 2048) and, for each of
  the four gates (input, forget, candidate, output), a weight matrix 2048 × 4096 — its first 2048 columns meet `x`,
  its last 2048 columns meet `h` — and a bias of 2048 entries.

  The pre-activation of a gate at batch row `b` and unit `n` is
      (Σ_k x(b,k) · W(n,k)) + (Σ_k h(b,k) · W(n,2048+k)) + v(n),
  the new cell is  σ(forget) · c + σ(input) · tanh(candidate)  and the new hidden value  σ(output) · tanh(new cell),
  with σ y = 1 / (1 + e^(−y)).

  The same pre-activation written with ONE sum over the 4096 columns of the rows `[x | h]` is equal to it: a finite
  sum cut at 2048 is the sum of its two halves, which holds in any commutative additive monoid, so at the
  infinite values too.
-/
import Idealize.ShloMosaic.PureOps.Ideal
import Idealize.ShloMosaic.Lib.ValueIdx
import proofs.«153864_j67800353735261_2_alg».proof.Proof.LibFinSplit

noncomputable section

namespace Cert.LstmCell

open Idealize.ShloMosaic Idealize.ShloMosaic.ValueIdx

/-- Batch rows × units (also batch rows × input features: both 2048 here). -/
abbrev SAct : Shape := ⟨2, ![4096, 2048]⟩
/-- A gate's weights: units × (input features then hidden units). -/
abbrev SWt : Shape := ⟨2, ![2048, 4096]⟩
/-- A gate's bias. -/
abbrev SBias : Shape := ⟨1, ![2048]⟩

/-- The `g`-th of four things (the gates in the order input, forget, candidate, output). -/
def pick {α : Sort*} (g : Fin 4) (a0 a1 a2 a3 : α) : α :=
  match g with
  | ⟨0, _⟩ => a0
  | ⟨1, _⟩ => a1
  | ⟨2, _⟩ => a2
  | ⟨3, _⟩ => a3

/-- Column `k` of the half of a weight row that meets `x`. -/
abbrev colX (k : Fin 2048) : Fin 4096 := ⟨k.val, by have := k.isLt; omega⟩
/-- Column `k` of the half of a weight row that meets `h`. -/
abbrev colH (k : Fin 2048) : Fin 4096 := ⟨2048 + k.val, by have := k.isLt; omega⟩

/-- A gate's pre-activation at batch row `b`, unit `n`: the two half products, then the bias. -/
def pre (x h : FVec Ideal SAct .f32) (W : FVec Ideal SWt .f32) (v : FVec Ideal SBias .f32) (b : Fin 4096) (n : Fin 2048) : EReal :=
  (∑ k : Fin 2048, x (ix2 b k) * W (ix2 n (colX k))) + (∑ k : Fin 2048, h (ix2 b k) * W (ix2 n (colH k))) + v (ix1 n)

/-- Entry `k` of the row `[x(b,·) | h(b,·)]`. -/
def cat (x h : FVec Ideal SAct .f32) (b : Fin 4096) (k : Fin 4096) : EReal :=
  if hk : k.val < 2048 then x (ix2 b ⟨k.val, hk⟩) else h (ix2 b ⟨k.val - 2048, by have := k.isLt; omega⟩)

/-- The pre-activation with one sum over all 4096 columns. -/
def preCat (x h : FVec Ideal SAct .f32) (W : FVec Ideal SWt .f32) (v : FVec Ideal SBias .f32) (b : Fin 4096) (n : Fin 2048) : EReal :=
  (∑ k : Fin 4096, cat x h b k * W (ix2 n k)) + v (ix1 n)

/-- The one sum is the two half sums. -/
theorem preCat_eq (x h : FVec Ideal SAct .f32) (W : FVec Ideal SWt .f32) (v : FVec Ideal SBias .f32) (b : Fin 4096) (n : Fin 2048) :
    preCat x h W v b n = pre x h W v b n := by
  unfold preCat pre
  rw [Cert.Lib.FinSplit.sum_fin_split 2048 2048 rfl]
  have e1 : ∀ k : Fin 2048, cat x h b ⟨k.val, by have := k.isLt; omega⟩ = x (ix2 b k) := fun k => by
    have hk : (⟨k.val, by have := k.isLt; omega⟩ : Fin 4096).val < 2048 := k.isLt
    unfold cat; rw [dif_pos hk]
  have e2 : ∀ k : Fin 2048, cat x h b ⟨2048 + k.val, by have := k.isLt; omega⟩ = h (ix2 b k) := fun k => by
    have hk : ¬ (⟨2048 + k.val, by have := k.isLt; omega⟩ : Fin 4096).val < 2048 := by simp
    unfold cat; rw [dif_neg hk]
    congr 2; apply Fin.ext; simp
  simp only [e1, e2]

variable (x h c : FVec Ideal SAct .f32)
  (Wi : FVec Ideal SWt .f32) (bi : FVec Ideal SBias .f32) (Wf : FVec Ideal SWt .f32) (bf : FVec Ideal SBias .f32)
  (Wg : FVec Ideal SWt .f32) (bg : FVec Ideal SBias .f32) (Wo : FVec Ideal SWt .f32) (bo : FVec Ideal SBias .f32)

/-- The new cell value at `(b, n)`. -/
def cellAt (b : Fin 4096) (n : Fin 2048) : EReal :=
  Ideal.logistic (pre x h Wf bf b n) * c (ix2 b n) + Ideal.logistic (pre x h Wi bi b n) * Ideal.tanh (pre x h Wg bg b n)

/-- The new hidden value at `(b, n)`. -/
def hiddenAt (b : Fin 4096) (n : Fin 2048) : EReal :=
  Ideal.logistic (pre x h Wo bo b n) * Ideal.tanh (cellAt x h c Wi bi Wf bf Wg bg b n)

/-- The new cell rows as one array. -/
def cellOut : FVec Ideal SAct .f32 := fun i => cellAt x h c Wi bi Wf bf Wg bg (i 0) (i 1)

/-- The new hidden rows as one array. -/
def hiddenOut : FVec Ideal SAct .f32 := fun i => hiddenAt x h c Wi bi Wf bf Wg bg Wo bo (i 0) (i 1)

end Cert.LstmCell

end
-- ==== Proof.KernelIdealGrid.lean ====
/-
  The launch's index maps over its 8 × 8 grid, decided once: at every point the row blocks of `x`, `h` and `c` are
  at the hidden result's block row, the slabs of the stacked weights and bias at its block column, the cell result's
  block is the hidden result's, and every one of the 64 blocks of a result array is some point's.
-/
import proofs.«153864_j67800353735261_2_alg».proof.Proof.Gen.KernelIdeal.Points

set_option maxRecDepth 16384

noncomputable section

namespace Cert.KernelIdeal.Cell

open Cert.KernelIdeal Cert.KernelIdeal.Gen
open Idealize.ShloMosaic Idealize.ShloMosaic.TcCoe

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- Every input window moves with the hidden result's window: the row blocks of `x`, `h`, `c` with its block row, the
    slabs with its block column; the cell result's window is the same; block row and block column stay below 8. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = win0_6.index t (1 : Fin 2)
    ∧ win0_3.index t (0 : Fin 3) = win0_6.index t (1 : Fin 2) ∧ win0_3.index t (1 : Fin 3) = 0 ∧ win0_3.index t (2 : Fin 3) = 0
    ∧ win0_4.index t (0 : Fin 3) = win0_6.index t (1 : Fin 2) ∧ win0_4.index t (1 : Fin 3) = 0 ∧ win0_4.index t (2 : Fin 3) = 0
    ∧ win0_5.index t (0 : Fin 3) = win0_6.index t (1 : Fin 2) ∧ win0_5.index t (1 : Fin 3) = 0 ∧ win0_5.index t (2 : Fin 3) = 0
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every block (I, J) of the 8 × 8 blocks is some point's. -/
theorem idx_onto : ∀ (q0 : Fin 8) (q1 : Fin 8), ∃ t : Fin cfg0.N, win0_6.index t = ![q0.val, q1.val] :=
  (by decide +kernel : ∀ (q0 : Fin 8) (q1 : Fin 8), ∃ t : Fin grid0.N, win0_6.index t = ![q0.val, q1.val])

end Cert.KernelIdeal.Cell

end
-- ==== Proof.KernelIdealCell.lean ====
/-
  From blocks to arrays: after the run, the idealized kernel's two result arrays are the cell step's two functions
  of the argument arrays.

  Grid point `t` sits at block row `I` (of 8 blocks of 512 batch rows) and block column `J` (of 8 blocks of 256
  units). Its input blocks are rows 512·I … of `x` and `h` (all 2048 columns), block (I, J) of `c`, and slab `J`
  of the stacked weights and bias; it writes block (I, J) of each result. Entry (p, q) of that block is entry
  (512·I + p, 256·J + q) of the array, and slab `J` at stacked column 256·g + q holds gate `g`'s weights of unit
  256·J + q — so the body's value there is the cell step's value at that batch row and unit. The 64 blocks tile
  each result array, so the whole array is the cell step's.

  What the stacked operands hold is taken here as a hypothesis (`Operands`); it is proved from the host operations
  elsewhere.
-/
import proofs.«153864_j67800353735261_2_alg».proof.Proof.KernelIdealRun
import proofs.«153864_j67800353735261_2_alg».proof.Proof.KernelIdealBlock
import proofs.«153864_j67800353735261_2_alg».proof.Proof.CellSpec
import proofs.«153864_j67800353735261_2_alg».proof.Proof.KernelIdealGrid

set_option maxRecDepth 16384

noncomputable section

namespace Cert.KernelIdeal.Cell

open Cert.KernelIdeal Cert.KernelIdeal.Gen Cert.LstmCell
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## What the launch finds in the operands the host operations prepared -/

/-- The narrowed `x` and `h` are `x` and `h`; slab `j` of a stacked weight array at row `d`, stacked column
    256·g + q is gate `g`'s weight of unit 256·j + q against input `d` (resp. hidden unit `d`); slab `j` of the stacked
    bias at stacked column 256·g + q is gate `g`'s bias of unit 256·j + q. -/
structure Operands (c : Dev nD) : Prop where
  castX : (V m c main_v36 : S4096x2048.Idx → EReal) = m ((c : Thread nD τ).loc main_arg0)
  castH : (V m c main_v37 : S4096x2048.Idx → EReal) = m ((c : Thread nD τ).loc main_arg1)
  stackedX : ∀ (j : Fin 8) (d : Fin 2048) (g : Fin 4) (q : Fin 256),
    (V m c main_v13 : S8x2048x1024.Idx → EReal) (ix3 j d ⟨256 * g.val + q.val, by have := g.isLt; have := q.isLt; omega⟩)
      = (pick g (m ((c : Thread nD τ).loc main_arg3)) (m ((c : Thread nD τ).loc main_arg5)) (m ((c : Thread nD τ).loc main_arg7)) (m ((c : Thread nD τ).loc main_arg9)) : S2048x4096.Idx → EReal)
          (ix2 ⟨256 * j.val + q.val, by have := j.isLt; have := q.isLt; omega⟩ (colX d))
  stackedH : ∀ (j : Fin 8) (d : Fin 2048) (g : Fin 4) (q : Fin 256),
    (V m c main_v27 : S8x2048x1024.Idx → EReal) (ix3 j d ⟨256 * g.val + q.val, by have := g.isLt; have := q.isLt; omega⟩)
      = (pick g (m ((c : Thread nD τ).loc main_arg3)) (m ((c : Thread nD τ).loc main_arg5)) (m ((c : Thread nD τ).loc main_arg7)) (m ((c : Thread nD τ).loc main_arg9)) : S2048x4096.Idx → EReal)
          (ix2 ⟨256 * j.val + q.val, by have := j.isLt; have := q.isLt; omega⟩ (colH d))
  stackedBias : ∀ (j : Fin 8) (g : Fin 4) (q : Fin 256),
    (V m c main_v35 : S8x1x1024.Idx → EReal) (ix3 j (0 : Fin 1) ⟨256 * g.val + q.val, by have := g.isLt; have := q.isLt; omega⟩)
      = (pick g (m ((c : Thread nD τ).loc main_arg4)) (m ((c : Thread nD τ).loc main_arg6)) (m ((c : Thread nD τ).loc main_arg8)) (m ((c : Thread nD τ).loc main_arg10)) : S2048.Idx → EReal)
          (ix1 ⟨256 * j.val + q.val, by have := j.isLt; have := q.isLt; omega⟩)

/-! ## The input blocks, read at an entry -/

section Blocks

variable (c : Dev nD) (t : Fin cfg0.N)

/-- Rows of `x`: entry (p, k) of the block is entry (b, k) of the narrowed `x`, `b` the batch row. -/
theorem rowsX_apply (p : Fin 512) (k : Fin 2048) (b : Fin 4096) (hb : b.val = 512 * win0_6.index t (0 : Fin 2) + p.val) :
    (iblk m c 0 t : S512x2048.Idx → EReal) (ix2 p k) = (V m c main_v36 : S4096x2048.Idx → EReal) (ix2 b k) := by
  obtain ⟨e00, e01, -⟩ := idx_facts t
  show (V m c main_v36 : S4096x2048.Idx → EReal) (((cfg0.win 0).blk t).view.emb (ix2 p k)) = _
  refine congrArg (V m c main_v36 : S4096x2048.Idx → EReal) ?_
  funext a; apply Fin.ext
  match a with
  | ⟨0, _⟩ => show win0_0.index t (0 : Fin 2) * 512 + 1 * p.val = b.val; omega
  | ⟨1, _⟩ => show win0_0.index t (1 : Fin 2) * 2048 + 1 * k.val = k.val; omega

/-- Rows of `h`. -/
theorem rowsH_apply (p : Fin 512) (k : Fin 2048) (b : Fin 4096) (hb : b.val = 512 * win0_6.index t (0 : Fin 2) + p.val) :
    (iblk m c 1 t : S512x2048.Idx → EReal) (ix2 p k) = (V m c main_v37 : S4096x2048.Idx → EReal) (ix2 b k) := by
  obtain ⟨-, -, e10, e11, -⟩ := idx_facts t
  show (V m c main_v37 : S4096x2048.Idx → EReal) (((cfg0.win 1).blk t).view.emb (ix2 p k)) = _
  refine congrArg (V m c main_v37 : S4096x2048.Idx → EReal) ?_
  funext a; apply Fin.ext
  match a with
  | ⟨0, _⟩ => show win0_1.index t (0 : Fin 2) * 512 + 1 * p.val = b.val; omega
  | ⟨1, _⟩ => show win0_1.index t (1 : Fin 2) * 2048 + 1 * k.val = k.val; omega

/-- The block of `c`. -/
theorem blockC_apply (p : Fin 512) (q : Fin 256) (b : Fin 4096) (n : Fin 2048)
    (hb : b.val = 512 * win0_6.index t (0 : Fin 2) + p.val) (hn : n.val = 256 * win0_6.index t (1 : Fin 2) + q.val) :
    (iblk m c 2 t : S512x256.Idx → EReal) (ix2 p q) = (V m c main_arg2 : S4096x2048.Idx → EReal) (ix2 b n) := by
  obtain ⟨-, -, -, -, e20, e21, -⟩ := idx_facts t
  show (V m c main_arg2 : S4096x2048.Idx → EReal) (((cfg0.win 2).blk t).view.emb (ix2 p q)) = _
  refine congrArg (V m c main_arg2 : S4096x2048.Idx → EReal) ?_
  funext a; apply Fin.ext
  match a with
  | ⟨0, _⟩ => show win0_2.index t (0 : Fin 2) * 512 + 1 * p.val = b.val; omega
  | ⟨1, _⟩ => show win0_2.index t (1 : Fin 2) * 256 + 1 * q.val = n.val; omega

/-- A slab of the stacked `x`-half weights. -/
theorem slabX_apply (k : Fin 2048) (col : Fin 1024) (j : Fin 8) (hj : j.val = win0_6.index t (1 : Fin 2)) :
    (iblk m c 3 t : S1x2048x1024.Idx → EReal) (ix3 (0 : Fin 1) k col) = (V m c main_v13 : S8x2048x1024.Idx → EReal) (ix3 j k col) := by
  obtain ⟨-, -, -, -, -, -, e30, e31, e32, -⟩ := idx_facts t
  unfold iblk
  rw [View.read_apply, cast_eq]
  refine congrArg (V m c main_v13 : S8x2048x1024.Idx → EReal) ?_
  funext a; apply Fin.ext
  match a with
  | ⟨0, _⟩ => show win0_3.index t (0 : Fin 3) * 1 + 1 * 0 = j.val; omega
  | ⟨1, _⟩ => show win0_3.index t (1 : Fin 3) * 2048 + 1 * k.val = k.val; omega
  | ⟨2, _⟩ => show win0_3.index t (2 : Fin 3) * 1024 + 1 * col.val = col.val; omega

/-- A slab of the stacked `h`-half weights. -/
theorem slabH_apply (k : Fin 2048) (col : Fin 1024) (j : Fin 8) (hj : j.val = win0_6.index t (1 : Fin 2)) :
    (iblk m c 4 t : S1x2048x1024.Idx → EReal) (ix3 (0 : Fin 1) k col) = (V m c main_v27 : S8x2048x1024.Idx → EReal) (ix3 j k col) := by
  obtain ⟨-, -, -, -, -, -, -, -, -, e40, e41, e42, -⟩ := idx_facts t
  unfold iblk
  rw [View.read_apply, cast_eq]
  refine congrArg (V m c main_v27 : S8x2048x1024.Idx → EReal) ?_
  funext a; apply Fin.ext
  match a with
  | ⟨0, _⟩ => show win0_4.index t (0 : Fin 3) * 1 + 1 * 0 = j.val; omega
  | ⟨1, _⟩ => show win0_4.index t (1 : Fin 3) * 2048 + 1 * k.val = k.val; omega
  | ⟨2, _⟩ => show win0_4.index t (2 : Fin 3) * 1024 + 1 * col.val = col.val; omega

/-- A slab of the stacked bias. -/
theorem slabBias_apply (col : Fin 1024) (j : Fin 8) (hj : j.val = win0_6.index t (1 : Fin 2)) :
    (iblk m c 5 t : S1x1x1024.Idx → EReal) (ix3 (0 : Fin 1) (0 : Fin 1) col) = (V m c main_v35 : S8x1x1024.Idx → EReal) (ix3 j (0 : Fin 1) col) := by
  obtain ⟨-, -, -, -, -, -, -, -, -, -, -, -, e50, e51, e52, -⟩ := idx_facts t
  unfold iblk
  rw [View.read_apply, cast_eq]
  refine congrArg (V m c main_v35 : S8x1x1024.Idx → EReal) ?_
  funext a; apply Fin.ext
  match a with
  | ⟨0, _⟩ => show win0_5.index t (0 : Fin 3) * 1 + 1 * 0 = j.val; omega
  | ⟨1, _⟩ => show win0_5.index t (1 : Fin 3) * 1 + 1 * 0 = 0; omega
  | ⟨2, _⟩ => show win0_5.index t (2 : Fin 3) * 1024 + 1 * col.val = col.val; omega

/-! ## The body's value at an entry is the cell step's -/

theorem stackedCol_lt (g : Fin 4) (q : Fin 256) : 256 * g.val + q.val < 1024 := by have := g.isLt; have := q.isLt; omega
theorem unit_lt (J : Nat) (hJ : J ≤ 7) (q : Fin 256) : 256 * J + q.val < 2048 := by have := q.isLt; omega
theorem slab_lt (J : Nat) (hJ : J ≤ 7) : J < 8 := by omega

/-- The block's pre-activation at row `p`, stacked column 256·g + q is gate `g`'s pre-activation at batch row `b`, unit `n`. -/
theorem blkPre_eq (hop : Operands m c) (p : Fin 512) (q : Fin 256) (b : Fin 4096) (n : Fin 2048)
    (hb : b.val = 512 * win0_6.index t (0 : Fin 2) + p.val) (hn : n.val = 256 * win0_6.index t (1 : Fin 2) + q.val)
    (g : Fin 4) (col : Fin 1024) (hcol : col.val = 256 * g.val + q.val) :
    Block.blkPre (iblk m c 0 t) (iblk m c 1 t) (iblk m c 3 t) (iblk m c 4 t) (iblk m c 5 t) p col
      = pre (m ((c : Thread nD τ).loc main_arg0)) (m ((c : Thread nD τ).loc main_arg1)) (pick g (m ((c : Thread nD τ).loc main_arg3)) (m ((c : Thread nD τ).loc main_arg5)) (m ((c : Thread nD τ).loc main_arg7)) (m ((c : Thread nD τ).loc main_arg9))) (pick g (m ((c : Thread nD τ).loc main_arg4)) (m ((c : Thread nD τ).loc main_arg6)) (m ((c : Thread nD τ).loc main_arg8)) (m ((c : Thread nD τ).loc main_arg10))) b n := by
  obtain ⟨-, -, -, -, -, -, -, -, -, -, -, -, -, -, -, -, -, -, hJ⟩ := idx_facts t
  have hcol' : col = ⟨256 * g.val + q.val, stackedCol_lt g q⟩ := Fin.ext hcol
  subst hcol'
  have hn' : n = ⟨256 * (⟨win0_6.index t (1 : Fin 2), slab_lt _ hJ⟩ : Fin 8).val + q.val, unit_lt _ hJ q⟩ := Fin.ext hn
  subst hn'
  unfold Block.blkPre pre
  refine congrArg₂ (· + ·) (congrArg₂ (· + ·) (Finset.sum_congr rfl fun k _ => ?_) (Finset.sum_congr rfl fun k _ => ?_)) ?_
  · rw [rowsX_apply m c t p k b hb, hop.castX, slabX_apply m c t k _ ⟨win0_6.index t (1 : Fin 2), slab_lt _ hJ⟩ rfl, hop.stackedX]
  · rw [rowsH_apply m c t p k b hb, hop.castH, slabH_apply m c t k _ ⟨win0_6.index t (1 : Fin 2), slab_lt _ hJ⟩ rfl, hop.stackedH]
  · rw [slabBias_apply m c t _ ⟨win0_6.index t (1 : Fin 2), slab_lt _ hJ⟩ rfl, hop.stackedBias]

/-- The body's new cell value at entry (p, q) of the block is the cell step's at (b, n). -/
theorem cell_entry (hop : Operands m c) (p : Fin 512) (q : Fin 256) (b : Fin 4096) (n : Fin 2048)
    (hb : b.val = 512 * win0_6.index t (0 : Fin 2) + p.val) (hn : n.val = 256 * win0_6.index t (1 : Fin 2) + q.val) :
    k0_pay2 (F := Ideal) (iblk m c 0 t) (iblk m c 1 t) (iblk m c 2 t) (iblk m c 3 t) (iblk m c 4 t) (iblk m c 5 t) (ix2 p q) = cellAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b n := by
  refine (Block.cell_apply (iblk m c 0 t) (iblk m c 1 t) (iblk m c 2 t) (iblk m c 3 t) (iblk m c 4 t) (iblk m c 5 t) p q).trans ?_
  rw [blkPre_eq m c t hop p q b n hb hn (1 : Fin 4) (Block.gcol 256 q) rfl,
    blkPre_eq m c t hop p q b n hb hn (0 : Fin 4) (Block.gcol 0 q) (by show 0 + q.val = 256 * 0 + q.val; omega),
    blkPre_eq m c t hop p q b n hb hn (2 : Fin 4) (Block.gcol 512 q) rfl,
    blockC_apply m c t p q b n hb hn, V_main_arg2]
  rfl

/-- The body's new hidden value at entry (p, q) of the block is the cell step's at (b, n). -/
theorem hidden_entry (hop : Operands m c) (p : Fin 512) (q : Fin 256) (b : Fin 4096) (n : Fin 2048)
    (hb : b.val = 512 * win0_6.index t (0 : Fin 2) + p.val) (hn : n.val = 256 * win0_6.index t (1 : Fin 2) + q.val) :
    k0_pay3 (F := Ideal) (iblk m c 0 t) (iblk m c 1 t) (iblk m c 2 t) (iblk m c 3 t) (iblk m c 4 t) (iblk m c 5 t) (ix2 p q) = hiddenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b n := by
  refine (Block.hidden_apply (iblk m c 0 t) (iblk m c 1 t) (iblk m c 2 t) (iblk m c 3 t) (iblk m c 4 t) (iblk m c 5 t) p q).trans ?_
  rw [blkPre_eq m c t hop p q b n hb hn (3 : Fin 4) (Block.gcol 768 q) rfl, cell_entry m c t hop p q b n hb hn]
  rfl

/-! ## What a point writes back -/

/-- Point `t` writes back block `t` of the new hidden array. -/
theorem hidden_flushed (hop : Operands m c) :
    (dats m 0 c).flushed 6 t = ((cfg0.win 6).blk t).view.read (Elt Ideal) (hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after0_6]
  unfold hiddenBuf
  rw [View.canon_unit_zero hz2]
  simp only [View.ld_unit_zero (S := S512x2048) hz2, View.ld_unit_zero (S := S512x256) hz2,
    View.ld_unit_zero (S := S1x2048x1024) hz3, View.ld_unit_zero (S := S1x1x1024) hz3]
  obtain ⟨-, -, -, -, -, -, -, -, -, -, -, -, -, -, -, -, -, hI, hJ⟩ := idx_facts t
  funext y
  obtain ⟨p, q, rfl⟩ : ∃ (p : Fin 512) (q : Fin 256), y = ix2 p q := ⟨y 0, y 1, eq_ix2 y⟩
  have hemb : ((cfg0.win 6).blk t).view.emb (ix2 p q)
      = ix2 (⟨512 * win0_6.index t (0 : Fin 2) + p.val, by have := p.isLt; omega⟩ : Fin 4096)
          (⟨256 * win0_6.index t (1 : Fin 2) + q.val, by have := q.isLt; omega⟩ : Fin 2048) := by
    funext a; apply Fin.ext
    match a with
    | ⟨0, _⟩ => show win0_6.index t (0 : Fin 2) * 512 + 1 * p.val = 512 * win0_6.index t (0 : Fin 2) + p.val; omega
    | ⟨1, _⟩ => show win0_6.index t (1 : Fin 2) * 256 + 1 * q.val = 256 * win0_6.index t (1 : Fin 2) + q.val; omega
  show k0_pay3 (F := Ideal) (iblk m c 0 t) (iblk m c 1 t) (iblk m c 2 t) (iblk m c 3 t) (iblk m c 4 t) (iblk m c 5 t) (ix2 p q) = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 6).blk t).view.emb (ix2 p q))
  rw [hemb]
  exact hidden_entry m c t hop p q _ _ rfl rfl

/-- Point `t` writes back block `t` of the new cell array. -/
theorem cell_flushed (hop : Operands m c) :
    (dats m 0 c).flushed 7 t = ((cfg0.win 7).blk t).view.read (Elt Ideal) (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 7).cut (grid0.coords t) ((dats m 0 c).after 7 t) = _
  rw [after0_7]
  unfold cellBuf
  rw [View.canon_unit_zero hz2]
  simp only [View.ld_unit_zero (S := S512x2048) hz2, View.ld_unit_zero (S := S512x256) hz2,
    View.ld_unit_zero (S := S1x2048x1024) hz3, View.ld_unit_zero (S := S1x1x1024) hz3]
  obtain ⟨-, -, -, -, -, -, -, -, -, -, -, -, -, -, -, e70, e71, hI, hJ⟩ := idx_facts t
  funext y
  obtain ⟨p, q, rfl⟩ : ∃ (p : Fin 512) (q : Fin 256), y = ix2 p q := ⟨y 0, y 1, eq_ix2 y⟩
  have hemb : ((cfg0.win 7).blk t).view.emb (ix2 p q)
      = ix2 (⟨512 * win0_6.index t (0 : Fin 2) + p.val, by have := p.isLt; omega⟩ : Fin 4096)
          (⟨256 * win0_6.index t (1 : Fin 2) + q.val, by have := q.isLt; omega⟩ : Fin 2048) := by
    funext a; apply Fin.ext
    match a with
    | ⟨0, _⟩ => show win0_7.index t (0 : Fin 2) * 512 + 1 * p.val = 512 * win0_6.index t (0 : Fin 2) + p.val; omega
    | ⟨1, _⟩ => show win0_7.index t (1 : Fin 2) * 256 + 1 * q.val = 256 * win0_6.index t (1 : Fin 2) + q.val; omega
  show k0_pay2 (F := Ideal) (iblk m c 0 t) (iblk m c 1 t) (iblk m c 2 t) (iblk m c 3 t) (iblk m c 4 t) (iblk m c 5 t) (ix2 p q) = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 7).blk t).view.emb (ix2 p q))
  rw [hemb]
  exact cell_entry m c t hop p q _ _ rfl rfl

end Blocks

/-! ## The 64 blocks tile each result array -/

theorem mem_blk6 (t : Fin cfg0.N) (i : S4096x2048.Idx) :
    i ∈ ((cfg0.win 6).blk t).view.set ↔ ∀ a : Fin 2, win0_6.index t a * S512x256.size a ≤ (i a).val ∧ (i a).val < win0_6.index t a * S512x256.size a + S512x256.size a := by
  show i ∈ ((View.whole main_v38_0).slice (win0_6.rect t)).set ↔ _
  rw [View.set_slice_whole, Rect.mem_set_unit]
  exact Iff.rfl

theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v38_1).slice (win0_7.rect t)).set ↔ _
  rw [View.set_slice_whole, Rect.mem_set_unit]
  exact Iff.rfl

/-- Every entry of the hidden array is in the block of the point at block row (row / 512), block column (column / 256). -/
theorem cover6 (i : S4096x2048.Idx) : ∃ t : Fin cfg0.N, (cfg0.win 6).flush t = true ∧ i ∈ ((cfg0.win 6).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_6.index t (0 : Fin 2) = (i 0).val / 512 := congrFun ht 0
  have q1 : win0_6.index t (1 : Fin 2) = (i 1).val / 256 := congrFun ht 1
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 256 ≤ (i 1).val ∧ (i 1).val < win0_6.index t (1 : Fin 2) * 256 + 256; omega

/-- The same for the cell array. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨-, -, -, -, -, -, -, -, -, -, -, -, -, -, -, e70, e71, -⟩ := idx_facts t
  have q0 : win0_6.index t (0 : Fin 2) = (i 0).val / 512 := congrFun ht 0
  have q1 : win0_6.index t (1 : Fin 2) = (i 1).val / 256 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-! ## The arrays after the run, and the run re-posted -/

theorem hidden_final (c : Dev nD) (hop : Operands m c) : (dats m 0 c).arrAt 6 cfg0.N = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 (hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => hidden_flushed m c t hop) cover6

theorem cell_final (c : Dev nD) (hop : Operands m c) : (dats m 0 c).arrAt 7 cfg0.N = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 7 (cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => cell_flushed m c t hop) cover7

/-- Every execution of the idealized kernel program ends, without a fault, with the first result array the cell step's
    new hidden rows, the second its new cell rows, and the arguments unchanged. -/
theorem run (hop : ∀ c, Operands m c) : θ_run defs (onTc (τ := τ) (main (F := Ideal))) ⟨m, fun _ => 0, ρ⟩ (fun r => ∀ c : Dev nD,
      r.2.mem ((c.tc : Thread nD τ).loc main_v38_0) = hiddenOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v38_1) = cellOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨((h c).1 6).trans (hidden_final m c (hop c)), ((h c).1 7).trans (cell_final m c (hop c)),
      kept_of m (dats m) (A_eq m) r h c⟩)
    (run_main m ρ)

end Cert.KernelIdeal.Cell

end
-- ==== Proof.StackedOperands.lean ====
/-
  The operands the host prefix of the kernel's program hands to its one pipelined call, read entry by entry.

  The prefix takes the four gates' weight matrices (each 2048 units × 4096 columns: the first 2048 columns meet the
  input rows, the last 2048 the hidden rows) and the four biases (2048 entries each) and stacks them by TILE of 256
  units: for each half of the columns, an array [8, 2048, 1024] whose entry (j, d, 256 g + q) is gate g's weight at
  unit 256 j + q and the half's column d; and an array [8, 1, 1024] whose entry (j, 0, 256 g + q) is gate g's bias at
  unit 256 j + q. It does so by a chain of layout operations — slice, unit leading axis, concatenation of the four,
  reshape, transposition, reshape, transposition — each of which reads ONE entry of its operand at each entry of its
  result; a reshape keeps the row-major position, and the positions agree because
      ((j · 4 + g) · 256 + q) = j · 1024 + (256 g + q)   and   (g · 8 + j) · 256 + q = g · 2048 + (256 j + q).
  The narrowing of the floats is the identity over the extended reals, so the two row operands are the arguments
  themselves.
-/
import proofs.«153864_j67800353735261_2_alg».proof.Proof.Gen.KernelIdeal.Launch
import proofs.«153864_j67800353735261_2_alg».proof.Proof.CellSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Stacked

open Idealize.ShloMosaic Idealize.ShloMosaic.TcCoe Idealize.ShloMosaic.ValueIdx
open Idealize.SL.Sem

/-! ## Four unit blocks laid end to end along an axis -/

section Concat4
variable {α : Type}

/-- Four pieces of one shape, each of extent one along the axis, concatenated: at an index whose axis coordinate is
    `g` the result is the `g`-th piece at the index with the same other coordinates and `0` on the axis. -/
theorem concat4_unit_apply {t s : Shape} (a : Fin t.rank) (x0 x1 x2 x3 : s.Idx → α)
    (h : Shape.Concatenates ([(⟨s, x0⟩ : (s : Shape) × (s.Idx → α)), ⟨s, x1⟩, ⟨s, x2⟩, ⟨s, x3⟩].map (·.1)) t a)
    (hr : s.rank = t.rank) (h1 : s.size (a.cast hr.symm) = 1)
    (g : Fin 4) (j : t.Idx) (hj : (j a).val = g.val) (i : s.Idx)
    (hi : ∀ b : Fin s.rank, b.cast hr ≠ a → (i b).val = (j (b.cast hr)).val) (hia : (i (a.cast hr.symm)).val = 0) :
    concatenate t a [⟨s, x0⟩, ⟨s, x1⟩, ⟨s, x2⟩, ⟨s, x3⟩] h j = Cert.LstmCell.pick g x0 x1 x2 x3 i := by
  match g, hj with
  | ⟨0, _⟩, hj =>
    exact concatenate_apply_piece a _ h j 0 (by simp) s x0 rfl hr 0 (by simp) i hi (by rw [hia, hj])
  | ⟨1, _⟩, hj =>
    exact concatenate_apply_piece a _ h j 1 (by simp) s x1 rfl hr 1 (by simp [dif_pos hr, h1]) i hi (by rw [hia, hj])
  | ⟨2, _⟩, hj =>
    exact concatenate_apply_piece a _ h j 2 (by simp) s x2 rfl hr 2 (by simp [dif_pos hr, h1]) i hi (by rw [hia, hj])
  | ⟨3, _⟩, hj =>
    exact concatenate_apply_piece a _ h j 3 (by simp) s x3 rfl hr 3 (by simp [dif_pos hr, h1]) i hi (by rw [hia, hj])

end Concat4

/-! ## The biases -/

/-- The four biases stacked the way the host prefix stacks them: each given a unit leading axis, the four laid end
    to end, cut into 8 tiles of 256, the tile axis brought in front, the gate and the position within the tile
    merged into one axis of 1024. -/
def biasStack (b0 b1 b2 b3 : FVec Ideal S2048 .f32) : FVec Ideal S8x1x1024 .f32 :=
  shapeCast S8x1x1024
    (transpose S8x4x256 [1, 0, 2]
      (shapeCast S4x8x256
        (concatenate S4x2048 0
          [⟨S1x2048, broadcastInDim S1x2048 ![1] Facts₀.bcast_S2048_S1x2048_1 b0⟩,
           ⟨S1x2048, broadcastInDim S1x2048 ![1] Facts₀.bcast_S2048_S1x2048_1 b1⟩,
           ⟨S1x2048, broadcastInDim S1x2048 ![1] Facts₀.bcast_S2048_S1x2048_1 b2⟩,
           ⟨S1x2048, broadcastInDim S1x2048 ![1] Facts₀.bcast_S2048_S1x2048_1 b3⟩]
          Facts₀.concatenates_S1x2048_S1x2048_S1x2048_S1x2048_S4x2048_d0)
        Facts₀.shapeCasts_S4x2048_S4x8x256)
      Facts₀.transposes_S4x8x256_S8x4x256_1_0_2)
    Facts₀.shapeCasts_S8x4x256_S8x1x1024

/-- A bias with a unit leading axis, read at `(0, n)`, is the bias at `n`. -/
theorem biasRow_apply (b : FVec Ideal S2048 .f32) (n : Fin 2048) :
    broadcastInDim S1x2048 ![1] Facts₀.bcast_S2048_S1x2048_1 b (ix2 (0 : Fin 1) n) = b (ix1 n) :=
  broadcastInDim_apply _ _ b _ (ix1 n) fun a => match a with
    | ⟨0, _⟩ => by show n.val = if (2048 : Nat) = 1 then 0 else n.val; rfl

/-- The stacked biases at tile `j`, gate `g`, position `q`: gate `g`'s bias at `256 j + q`. -/
theorem biasStack_apply (b0 b1 b2 b3 : FVec Ideal S2048 .f32) (j : Fin 8) (g : Fin 4) (q : Fin 256) :
    biasStack b0 b1 b2 b3 (ix3 j (0 : Fin 1) (⟨256 * g.val + q.val, by have := g.isLt; have := q.isLt; omega⟩ : Fin 1024))
      = Cert.LstmCell.pick g b0 b1 b2 b3 (ix1 (⟨256 * j.val + q.val, by have := j.isLt; have := q.isLt; omega⟩ : Fin 2048)) := by
  have hj := j.isLt; have hg := g.isLt; have hq := q.isLt
  unfold biasStack
  -- [8,1,1024] at (j, 0, 256 g + q) is [8,4,256] at (j, g, q)
  refine (shapeCast_apply _ _ _ (ix3 j g q)
    (by rw [Shape.rowMajor_val_three, Shape.rowMajor_val_three]
        show (j.val * 4 + g.val) * 256 + q.val = (j.val * 1 + 0) * 1024 + (256 * g.val + q.val)
        omega)).trans ?_
  -- [8,4,256] at (j, g, q) is [4,8,256] at (g, j, q)
  refine (transpose_apply _ _ _ _ (ix3 g j q)
    (fun b => match b with | ⟨0, _⟩ => rfl | ⟨1, _⟩ => rfl | ⟨2, _⟩ => rfl)).trans ?_
  -- [4,8,256] at (g, j, q) is [4,2048] at (g, 256 j + q)
  refine (shapeCast_apply _ _ _ (ix2 g (⟨256 * j.val + q.val, by omega⟩ : Fin 2048))
    (by rw [Shape.rowMajor_val_two, Shape.rowMajor_val_three]
        show g.val * 2048 + (256 * j.val + q.val) = (g.val * 8 + j.val) * 256 + q.val
        omega)).trans ?_
  -- the four rows laid end to end: row g
  refine (concat4_unit_apply (t := S4x2048) (s := S1x2048) 0 _ _ _ _ _ rfl rfl g (ix2 g (⟨256 * j.val + q.val, by omega⟩ : Fin 2048)) rfl (ix2 (0 : Fin 1) (⟨256 * j.val + q.val, by omega⟩ : Fin 2048))
    (fun b hb => match b, hb with
      | ⟨0, _⟩, hb => absurd rfl hb
      | ⟨1, _⟩, _ => rfl) rfl).trans ?_
  match g with
  | ⟨0, _⟩ => exact biasRow_apply b0 _
  | ⟨1, _⟩ => exact biasRow_apply b1 _
  | ⟨2, _⟩ => exact biasRow_apply b2 _
  | ⟨3, _⟩ => exact biasRow_apply b3 _

/-! ## The weights -/

/-- One half (the columns from `off 1` on) of each gate's weights, stacked the way the host prefix stacks them: each
    half given a unit leading axis, the four laid end to end, the 2048 units cut into 8 tiles of 256, the tile axis
    brought in front, the gate and the position within the tile merged into one axis of 1024, and that axis
    exchanged with the column axis. -/
def wStack (off : Fin 2 → Nat) (hs : S2048x4096.Slices off S2048x2048) (W0 W1 W2 W3 : FVec Ideal S2048x4096 .f32) :
    FVec Ideal S8x2048x1024 .bf16 :=
  truncf .bf16
    (transpose S8x2048x1024 [0, 2, 1]
      (shapeCast S8x1024x2048
        (transpose S8x4x256x2048 [1, 0, 2, 3]
          (shapeCast S4x8x256x2048
            (concatenate S4x2048x2048 0
              [⟨S1x2048x2048, broadcastInDim S1x2048x2048 ![1, 2] Facts₀.bcast_S2048x2048_S1x2048x2048_1_2 (extractStridedSlice S2048x2048 off W0 hs)⟩,
               ⟨S1x2048x2048, broadcastInDim S1x2048x2048 ![1, 2] Facts₀.bcast_S2048x2048_S1x2048x2048_1_2 (extractStridedSlice S2048x2048 off W1 hs)⟩,
               ⟨S1x2048x2048, broadcastInDim S1x2048x2048 ![1, 2] Facts₀.bcast_S2048x2048_S1x2048x2048_1_2 (extractStridedSlice S2048x2048 off W2 hs)⟩,
               ⟨S1x2048x2048, broadcastInDim S1x2048x2048 ![1, 2] Facts₀.bcast_S2048x2048_S1x2048x2048_1_2 (extractStridedSlice S2048x2048 off W3 hs)⟩]
              Facts₀.concatenates_S1x2048x2048_S1x2048x2048_S1x2048x2048_S1x2048x2048_S4x2048x2048_d0)
            Facts₀.shapeCasts_S4x2048x2048_S4x8x256x2048)
          Facts₀.transposes_S4x8x256x2048_S8x4x256x2048_1_0_2_3)
        Facts₀.shapeCasts_S8x4x256x2048_S8x1024x2048)
      Facts₀.transposes_S8x1024x2048_S8x2048x1024_0_2_1)
    Facts₀.bitsLt_bf16_f32

/-- A half of a weight matrix with a unit leading axis, read at `(0, n, d)`, is the matrix at row `n` and the column
    `k d` that lies `d` past the half's first column. -/
theorem wPiece_apply (off : Fin 2 → Nat) (hs : S2048x4096.Slices off S2048x2048) (k : Fin 2048 → Fin 4096)
    (h0 : off 0 = 0) (h1 : ∀ d : Fin 2048, (k d).val = off 1 + d.val)
    (W : FVec Ideal S2048x4096 .f32) (n d : Fin 2048) :
    broadcastInDim S1x2048x2048 ![1, 2] Facts₀.bcast_S2048x2048_S1x2048x2048_1_2 (extractStridedSlice S2048x2048 off W hs)
        (ix3 (0 : Fin 1) n d) = W (ix2 n (k d)) := by
  refine (broadcastInDim_apply _ _ _ _ (ix2 n d) fun a => match a with
    | ⟨0, _⟩ => by show n.val = if (2048 : Nat) = 1 then 0 else n.val; rfl
    | ⟨1, _⟩ => by show d.val = if (2048 : Nat) = 1 then 0 else d.val; rfl).trans ?_
  exact extractStridedSlice_apply off W hs _ (ix2 n (k d)) fun a => match a with
    | ⟨0, _⟩ => by show n.val = off 0 + n.val; rw [h0]; omega
    | ⟨1, _⟩ => by show (k d).val = off 1 + d.val; exact h1 d

/-- The stacked half weights at tile `j`, column `d`, gate `g`, position `q`: gate `g`'s weight at unit `256 j + q`
    and the column `k d`. -/
theorem wStack_apply (off : Fin 2 → Nat) (hs : S2048x4096.Slices off S2048x2048) (k : Fin 2048 → Fin 4096)
    (h0 : off 0 = 0) (h1 : ∀ d : Fin 2048, (k d).val = off 1 + d.val)
    (W0 W1 W2 W3 : FVec Ideal S2048x4096 .f32) (j : Fin 8) (d : Fin 2048) (g : Fin 4) (q : Fin 256) :
    wStack off hs W0 W1 W2 W3 (ix3 j d (⟨256 * g.val + q.val, by have := g.isLt; have := q.isLt; omega⟩ : Fin 1024))
      = Cert.LstmCell.pick g W0 W1 W2 W3 (ix2 (⟨256 * j.val + q.val, by have := j.isLt; have := q.isLt; omega⟩ : Fin 2048) (k d)) := by
  have hj := j.isLt; have hg := g.isLt; have hq := q.isLt; have hd := d.isLt
  unfold wStack
  rw [truncf_apply]
  -- [8,2048,1024] at (j, d, r) is [8,1024,2048] at (j, r, d)
  refine (transpose_apply _ _ _ _ (ix3 j (⟨256 * g.val + q.val, by omega⟩ : Fin 1024) d)
    (fun b => match b with | ⟨0, _⟩ => rfl | ⟨1, _⟩ => rfl | ⟨2, _⟩ => rfl)).trans ?_
  -- [8,1024,2048] at (j, 256 g + q, d) is [8,4,256,2048] at (j, g, q, d)
  refine (shapeCast_apply _ _ _ (ix4 j g q d)
    (by rw [Shape.rowMajor_val_four, Shape.rowMajor_val_three]
        show ((j.val * 4 + g.val) * 256 + q.val) * 2048 + d.val = (j.val * 1024 + (256 * g.val + q.val)) * 2048 + d.val
        omega)).trans ?_
  -- [8,4,256,2048] at (j, g, q, d) is [4,8,256,2048] at (g, j, q, d)
  refine (transpose_apply _ _ _ _ (ix4 g j q d)
    (fun b => match b with | ⟨0, _⟩ => rfl | ⟨1, _⟩ => rfl | ⟨2, _⟩ => rfl | ⟨3, _⟩ => rfl)).trans ?_
  -- [4,8,256,2048] at (g, j, q, d) is [4,2048,2048] at (g, 256 j + q, d)
  refine (shapeCast_apply _ _ _ (ix3 g (⟨256 * j.val + q.val, by omega⟩ : Fin 2048) d)
    (by rw [Shape.rowMajor_val_three, Shape.rowMajor_val_four]
        show (g.val * 2048 + (256 * j.val + q.val)) * 2048 + d.val = ((g.val * 8 + j.val) * 256 + q.val) * 2048 + d.val
        omega)).trans ?_
  -- the four blocks laid end to end: block g
  refine (concat4_unit_apply (t := S4x2048x2048) (s := S1x2048x2048) 0 _ _ _ _ _ rfl rfl g (ix3 g (⟨256 * j.val + q.val, by omega⟩ : Fin 2048) d) rfl (ix3 (0 : Fin 1) (⟨256 * j.val + q.val, by omega⟩ : Fin 2048) d)
    (fun b hb => match b, hb with
      | ⟨0, _⟩, hb => absurd rfl hb
      | ⟨1, _⟩, _ => rfl
      | ⟨2, _⟩, _ => rfl) rfl).trans ?_
  match g with
  | ⟨0, _⟩ => exact wPiece_apply off hs k h0 h1 W0 _ d
  | ⟨1, _⟩ => exact wPiece_apply off hs k h0 h1 W1 _ d
  | ⟨2, _⟩ => exact wPiece_apply off hs k h0 h1 W2 _ d
  | ⟨3, _⟩ => exact wPiece_apply off hs k h0 h1 W3 _ d

/-! ## The host prefix's results -/

section Prefix
variable (m : (ℓ : Loc nD τ sig) → Buf (Elt Ideal) ℓ) (c : Dev nD)

/-- The valuation after the host prefix, on core `c`'s device. -/
abbrev A : Valuation τ sig (Elt Ideal) := StableHlo.after (Gen.hostOps0 (F := Ideal)) (fun b => m (c, b))

theorem stackedX_term :
    (A m c (Proc.devRef .tc main_v13) : S8x2048x1024.Idx → EReal)
      = wStack ![0, 0] Facts₀.slices_S2048x4096_S2048x2048_0_0
          (m (c, Proc.devRef .tc main_arg3)) (m (c, Proc.devRef .tc main_arg5))
          (m (c, Proc.devRef .tc main_arg7)) (m (c, Proc.devRef .tc main_arg9)) := by
  dsimp only [A, Gen.hostOps0]; after_results; rfl

theorem stackedH_term :
    (A m c (Proc.devRef .tc main_v27) : S8x2048x1024.Idx → EReal)
      = wStack ![0, 2048] Facts₀.slices_S2048x4096_S2048x2048_0_2048
          (m (c, Proc.devRef .tc main_arg3)) (m (c, Proc.devRef .tc main_arg5))
          (m (c, Proc.devRef .tc main_arg7)) (m (c, Proc.devRef .tc main_arg9)) := by
  dsimp only [A, Gen.hostOps0]; after_results; rfl

theorem stackedBias_term :
    (A m c (Proc.devRef .tc main_v35) : S8x1x1024.Idx → EReal)
      = biasStack (m (c, Proc.devRef .tc main_arg4)) (m (c, Proc.devRef .tc main_arg6))
          (m (c, Proc.devRef .tc main_arg8)) (m (c, Proc.devRef .tc main_arg10)) := by
  dsimp only [A, Gen.hostOps0]; after_results; rfl

/-- The kernel's x-half weight operand at tile `j`, input feature `d`, gate `g`, position `q` is gate `g`'s weight at unit
    `256 j + q` and column `d`. -/
theorem stackedX_apply (j : Fin 8) (d : Fin 2048) (g : Fin 4) (q : Fin 256) :
    (A m c (Proc.devRef .tc main_v13) : S8x2048x1024.Idx → EReal)
        (ix3 j d (⟨256 * g.val + q.val, by have := g.isLt; have := q.isLt; omega⟩ : Fin 1024))
      = Cert.LstmCell.pick g
          (m (c, Proc.devRef .tc main_arg3) : S2048x4096.Idx → EReal) (m (c, Proc.devRef .tc main_arg5))
          (m (c, Proc.devRef .tc main_arg7)) (m (c, Proc.devRef .tc main_arg9))
          (ix2 (⟨256 * j.val + q.val, by have := j.isLt; have := q.isLt; omega⟩ : Fin 2048) (Cert.LstmCell.colX d)) := by
  rw [stackedX_term]
  exact wStack_apply ![0, 0] _ Cert.LstmCell.colX rfl (fun d => by show d.val = 0 + d.val; omega) _ _ _ _ j d g q

/-- The kernel's h-half weight operand at tile `j`, hidden unit `d`, gate `g`, position `q` is gate `g`'s weight at unit
    `256 j + q` and column `2048 + d`. -/
theorem stackedH_apply (j : Fin 8) (d : Fin 2048) (g : Fin 4) (q : Fin 256) :
    (A m c (Proc.devRef .tc main_v27) : S8x2048x1024.Idx → EReal)
        (ix3 j d (⟨256 * g.val + q.val, by have := g.isLt; have := q.isLt; omega⟩ : Fin 1024))
      = Cert.LstmCell.pick g
          (m (c, Proc.devRef .tc main_arg3) : S2048x4096.Idx → EReal) (m (c, Proc.devRef .tc main_arg5))
          (m (c, Proc.devRef .tc main_arg7)) (m (c, Proc.devRef .tc main_arg9))
          (ix2 (⟨256 * j.val + q.val, by have := j.isLt; have := q.isLt; omega⟩ : Fin 2048) (Cert.LstmCell.colH d)) := by
  rw [stackedH_term]
  exact wStack_apply ![0, 2048] _ Cert.LstmCell.colH rfl (fun d => rfl) _ _ _ _ j d g q

/-- The kernel's bias operand at tile `j`, gate `g`, position `q` is gate `g`'s bias at unit `256 j + q`. -/
theorem stackedBias_apply (j : Fin 8) (g : Fin 4) (q : Fin 256) :
    (A m c (Proc.devRef .tc main_v35) : S8x1x1024.Idx → EReal)
        (ix3 j (0 : Fin 1) (⟨256 * g.val + q.val, by have := g.isLt; have := q.isLt; omega⟩ : Fin 1024))
      = Cert.LstmCell.pick g
          (m (c, Proc.devRef .tc main_arg4) : S2048.Idx → EReal) (m (c, Proc.devRef .tc main_arg6))
          (m (c, Proc.devRef .tc main_arg8)) (m (c, Proc.devRef .tc main_arg10))
          (ix1 (⟨256 * j.val + q.val, by have := j.isLt; have := q.isLt; omega⟩ : Fin 2048)) := by
  rw [stackedBias_term]
  exact biasStack_apply _ _ _ _ j g q

/-- The kernel's input-row operand is the input rows: the narrowing is the identity over the extended reals. -/
theorem castX_eq :
    (A m c (Proc.devRef .tc main_v36) : S4096x2048.Idx → EReal) = m (c, Proc.devRef .tc main_arg0) := by
  dsimp only [A, Gen.hostOps0]; after_results; rfl

/-- The kernel's hidden-row operand is the previous hidden rows. -/
theorem castH_eq :
    (A m c (Proc.devRef .tc main_v37) : S4096x2048.Idx → EReal) = m (c, Proc.devRef .tc main_arg1) := by
  dsimp only [A, Gen.hostOps0]; after_results; rfl

end Prefix

end Cert.KernelIdeal.Stacked
end
-- ==== Proof.KernelIdealOperands.lean ====
/-
  What the launch finds in the operands the host operations prepared, as the cell step's arguments re-laid: the
  narrowed `x` and `h` are `x` and `h`, and slab `j` of each stacked array holds, at stacked column 256·g + q, gate
  `g`'s weights (bias) of unit 256·j + q.
-/
import proofs.«153864_j67800353735261_2_alg».proof.Proof.KernelIdealCell
import proofs.«153864_j67800353735261_2_alg».proof.Proof.StackedOperands

noncomputable section

namespace Cert.KernelIdeal.Cell

open Cert.KernelIdeal Cert.KernelIdeal.Gen Idealize.ShloMosaic Idealize.ShloMosaic.TcCoe Idealize.SL.Sem

theorem operands (m : (ℓ : Loc nD τ sig) → Buf (Elt Ideal) ℓ) (c : Dev nD) : Operands m c where
  castX := Cert.KernelIdeal.Stacked.castX_eq m c
  castH := Cert.KernelIdeal.Stacked.castH_eq m c
  stackedX := Cert.KernelIdeal.Stacked.stackedX_apply m c
  stackedH := Cert.KernelIdeal.Stacked.stackedH_apply m c
  stackedBias := Cert.KernelIdeal.Stacked.stackedBias_apply m c

end Cert.KernelIdeal.Cell

end
-- ==== Proof.RefIsCell.lean ====
/-
  The reference program computes one step of the long short-term memory cell of `Cert.LstmCell`.

  Its text joins the input rows and the previous hidden rows into `[x | h]` (4096 × 4096), stacks the four gates'
  weight matrices by rows (8192 × 4096) and joins their biases (8192), multiplies `[x | h]` by the transposed stack
  and adds the bias to every row: entry `(b, g · 2048 + n)` of that 4096 × 8192 array is the `g`-th gate's
  pre-activation at batch row `b`, unit `n`, written with one sum over the 4096 columns (`preCat`, equal to `pre`).
  The four column blocks are then passed through  y ↦ 1 / (1 + e^(−y))  (input, forget, output) or tanh (candidate),
  and the new cell  σ(f) · c + σ(i) · tanh(g)  and the new hidden value  σ(o) · tanh(new cell)  are formed entry by entry.
  Over the extended reals each of these steps is the function the cell's definition names, so the two results are
  `cellOut` and `hiddenOut`.
-/
import proofs.«153864_j67800353735261_2_alg».proof.Proof.Gen.ReferenceIdeal.Read
import proofs.«153864_j67800353735261_2_alg».proof.Proof.CellSpec
import Idealize.ShloMosaic.Lib.Pipeline.Value
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx Cert.LstmCell

/-- The word of the literal one. -/
theorem one_word : Ideal.ofBits .f32 0x3F800000#32 = 1 := by
  simp [Ideal.ofBits, Ideal.ieee, -EReal.coe_mul]; norm_num

/-- The joined rows `[x | h]` at row `b`, column `k`. -/
theorem v0_at (x0 x1 : FVec Ideal S4096x2048 .f32) (b k : Fin 4096) :
    val_main_v0 (F := Ideal) x0 x1 (ix2 b k) = cat x0 x1 b k := by
  unfold val_main_v0 cat
  by_cases hk : k.val < 2048
  · rw [dif_pos hk]
    exact concatenate_pair_apply_left 1 x0 x1 _ (ix2 b k) rfl (ix2 b ⟨k.val, hk⟩)
      (fun a => match a with | ⟨0, _⟩ => rfl | ⟨1, _⟩ => rfl)
  · rw [dif_neg hk]
    exact concatenate_pair_apply_right 1 x0 x1 _ (ix2 b k) rfl rfl (ix2 b ⟨k.val - 2048, by have := k.isLt; omega⟩)
      (fun a hne => match a, hne with | ⟨0, _⟩, _ => rfl | ⟨1, _⟩, hne => absurd rfl hne)
      (by show (k.val - 2048) + 2048 = k.val; omega)

/-- The four weight matrices stacked by rows, read in the rows of one of them: the `g`-th piece starts at row
    `g * 2048`. -/
theorem v1_at0 (x3 x5 x7 x9 : FVec Ideal S2048x4096 .f32) (n : Fin 2048) (k : Fin 4096) (r : Fin 8192)
    (hr : r.val = 0 + n.val) : val_main_v1 (F := Ideal) x3 x5 x7 x9 (ix2 r k) = x3 (ix2 n k) := by
  unfold val_main_v1
  exact concatenate_apply_piece 0 _ _ (ix2 r k) 0 (by simp) S2048x4096 x3 rfl rfl 0 rfl (ix2 n k)
    (fun a hne => match a, hne with | ⟨0, _⟩, hne => absurd rfl hne | ⟨1, _⟩, _ => rfl)
    (by show 0 + n.val = r.val; omega)

theorem v1_at1 (x3 x5 x7 x9 : FVec Ideal S2048x4096 .f32) (n : Fin 2048) (k : Fin 4096) (r : Fin 8192)
    (hr : r.val = 2048 + n.val) : val_main_v1 (F := Ideal) x3 x5 x7 x9 (ix2 r k) = x5 (ix2 n k) := by
  unfold val_main_v1
  exact concatenate_apply_piece 0 _ _ (ix2 r k) 1 (by simp) S2048x4096 x5 rfl rfl 2048 rfl (ix2 n k)
    (fun a hne => match a, hne with | ⟨0, _⟩, hne => absurd rfl hne | ⟨1, _⟩, _ => rfl)
    (by show 2048 + n.val = r.val; omega)

theorem v1_at2 (x3 x5 x7 x9 : FVec Ideal S2048x4096 .f32) (n : Fin 2048) (k : Fin 4096) (r : Fin 8192)
    (hr : r.val = 4096 + n.val) : val_main_v1 (F := Ideal) x3 x5 x7 x9 (ix2 r k) = x7 (ix2 n k) := by
  unfold val_main_v1
  exact concatenate_apply_piece 0 _ _ (ix2 r k) 2 (by simp) S2048x4096 x7 rfl rfl 4096 rfl (ix2 n k)
    (fun a hne => match a, hne with | ⟨0, _⟩, hne => absurd rfl hne | ⟨1, _⟩, _ => rfl)
    (by show 4096 + n.val = r.val; omega)

theorem v1_at3 (x3 x5 x7 x9 : FVec Ideal S2048x4096 .f32) (n : Fin 2048) (k : Fin 4096) (r : Fin 8192)
    (hr : r.val = 6144 + n.val) : val_main_v1 (F := Ideal) x3 x5 x7 x9 (ix2 r k) = x9 (ix2 n k) := by
  unfold val_main_v1
  exact concatenate_apply_piece 0 _ _ (ix2 r k) 3 (by simp) S2048x4096 x9 rfl rfl 6144 rfl (ix2 n k)
    (fun a hne => match a, hne with | ⟨0, _⟩, hne => absurd rfl hne | ⟨1, _⟩, _ => rfl)
    (by show 6144 + n.val = r.val; omega)

/-- The four biases joined, read inside one of them. -/
theorem v2_at0 (x4 x6 x8 x10 : FVec Ideal S2048 .f32) (n : Fin 2048) (r : Fin 8192)
    (hr : r.val = 0 + n.val) : val_main_v2 (F := Ideal) x4 x6 x8 x10 (ix1 r) = x4 (ix1 n) := by
  unfold val_main_v2
  exact concatenate_apply_piece 0 _ _ (ix1 r) 0 (by simp) S2048 x4 rfl rfl 0 rfl (ix1 n)
    (fun a hne => match a, hne with | ⟨0, _⟩, hne => absurd rfl hne)
    (by show 0 + n.val = r.val; omega)

theorem v2_at1 (x4 x6 x8 x10 : FVec Ideal S2048 .f32) (n : Fin 2048) (r : Fin 8192)
    (hr : r.val = 2048 + n.val) : val_main_v2 (F := Ideal) x4 x6 x8 x10 (ix1 r) = x6 (ix1 n) := by
  unfold val_main_v2
  exact concatenate_apply_piece 0 _ _ (ix1 r) 1 (by simp) S2048 x6 rfl rfl 2048 rfl (ix1 n)
    (fun a hne => match a, hne with | ⟨0, _⟩, hne => absurd rfl hne)
    (by show 2048 + n.val = r.val; omega)

theorem v2_at2 (x4 x6 x8 x10 : FVec Ideal S2048 .f32) (n : Fin 2048) (r : Fin 8192)
    (hr : r.val = 4096 + n.val) : val_main_v2 (F := Ideal) x4 x6 x8 x10 (ix1 r) = x8 (ix1 n) := by
  unfold val_main_v2
  exact concatenate_apply_piece 0 _ _ (ix1 r) 2 (by simp) S2048 x8 rfl rfl 4096 rfl (ix1 n)
    (fun a hne => match a, hne with | ⟨0, _⟩, hne => absurd rfl hne)
    (by show 4096 + n.val = r.val; omega)

theorem v2_at3 (x4 x6 x8 x10 : FVec Ideal S2048 .f32) (n : Fin 2048) (r : Fin 8192)
    (hr : r.val = 6144 + n.val) : val_main_v2 (F := Ideal) x4 x6 x8 x10 (ix1 r) = x10 (ix1 n) := by
  unfold val_main_v2
  exact concatenate_apply_piece 0 _ _ (ix1 r) 3 (by simp) S2048 x10 rfl rfl 6144 rfl (ix1 n)
    (fun a hne => match a, hne with | ⟨0, _⟩, hne => absurd rfl hne)
    (by show 6144 + n.val = r.val; omega)

/-- The pre-activations at row `b`, column `c = off + n`, when rows `off + ·` of the stacked weights are `W` and
    entries `off + ·` of the joined biases are `v`: the product of `[x | h]` with the transposed stack, the bias added. -/
theorem v7_at (x0 x1 : FVec Ideal S4096x2048 .f32) (x3 x5 x7 x9 : FVec Ideal S2048x4096 .f32) (x4 x6 x8 x10 : FVec Ideal S2048 .f32)
    (W : FVec Ideal S2048x4096 .f32) (v : FVec Ideal S2048 .f32) (off : Nat)
    (hW : ∀ (n : Fin 2048) (k : Fin 4096) (r : Fin 8192), r.val = off + n.val →
      val_main_v1 (F := Ideal) x3 x5 x7 x9 (ix2 r k) = W (ix2 n k))
    (hv : ∀ (n : Fin 2048) (r : Fin 8192), r.val = off + n.val →
      val_main_v2 (F := Ideal) x4 x6 x8 x10 (ix1 r) = v (ix1 n))
    (b : Fin 4096) (n : Fin 2048) (c : Fin 8192) (hc : c.val = off + n.val) :
    val_main_v7 (F := Ideal) x0 x1 x3 x4 x5 x6 x7 x8 x9 x10 (ix2 b c) = preCat x0 x1 W v b n := by
  rw [val_main_v7_apply, val_main_v4_apply, val_main_v6_apply, val_main_v5_apply, Ideal.addf_def]
  unfold preCat
  congr 1
  · refine Finset.sum_congr rfl fun k _ => ?_
    rw [val_main_v3_apply]
    have e1 : lidx_main_v4 (ix2 b c) k = ix2 b k := funext fun a => match a with | ⟨0, _⟩ => rfl | ⟨1, _⟩ => rfl
    have e2 : idx_main_v3 (ridx_main_v4 (ix2 b c) k) = ix2 c k :=
      funext fun a => match a with | ⟨0, _⟩ => rfl | ⟨1, _⟩ => rfl
    rw [e1, e2, v0_at, hW n k c hc]
  · have e3 : idx_main_v5 (idx_main_v6 (ix2 b c)) = ix1 c := funext fun a => match a with | ⟨0, _⟩ => rfl
    rw [e3, hv n c hc]

/-- The host's spelling of the logistic function — negate, exponential, one added, one divided by it — is the
    logistic function. -/
theorem sigmoid_host (y : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf y)))
      = Ideal.logistic y := by
  rw [Ideal.ofBits_def, one_word]
  rfl

theorem gate_i (x0 x1 : FVec Ideal S4096x2048 .f32) (x3 x5 x7 x9 : FVec Ideal S2048x4096 .f32) (x4 x6 x8 x10 : FVec Ideal S2048 .f32) (b : Fin 4096) (n : Fin 2048) :
    val_main_v14 (F := Ideal) x0 x1 x3 x4 x5 x6 x7 x8 x9 x10 (ix2 b n) = Ideal.logistic (pre x0 x1 x3 x4 b n) := by
  have e : idx_main_v8 (ix2 b n) = ix2 b (⟨0 + n.val, by have := n.isLt; omega⟩ : Fin 8192) :=
    funext fun a => match a with | ⟨0, _⟩ => rfl | ⟨1, _⟩ => Fin.ext (by show n.val = 0 + n.val; omega)
  rw [val_main_v14_apply, val_main_v13_apply, val_main_cst_0_apply, val_main_v12_apply, val_main_v11_apply, val_main_cst_apply, val_main_v10_apply, val_main_v9_apply, val_main_v8_apply, e,
    v7_at x0 x1 x3 x5 x7 x9 x4 x6 x8 x10 x3 x4 0 (v1_at0 x3 x5 x7 x9) (v2_at0 x4 x6 x8 x10) b n _ rfl, preCat_eq]
  exact sigmoid_host _

theorem gate_f (x0 x1 : FVec Ideal S4096x2048 .f32) (x3 x5 x7 x9 : FVec Ideal S2048x4096 .f32) (x4 x6 x8 x10 : FVec Ideal S2048 .f32) (b : Fin 4096) (n : Fin 2048) :
    val_main_v21 (F := Ideal) x0 x1 x3 x4 x5 x6 x7 x8 x9 x10 (ix2 b n) = Ideal.logistic (pre x0 x1 x5 x6 b n) := by
  have e : idx_main_v15 (ix2 b n) = ix2 b (⟨2048 + n.val, by have := n.isLt; omega⟩ : Fin 8192) :=
    funext fun a => match a with | ⟨0, _⟩ => rfl | ⟨1, _⟩ => rfl
  rw [val_main_v21_apply, val_main_v20_apply, val_main_cst_2_apply, val_main_v19_apply, val_main_v18_apply, val_main_cst_1_apply, val_main_v17_apply, val_main_v16_apply, val_main_v15_apply, e,
    v7_at x0 x1 x3 x5 x7 x9 x4 x6 x8 x10 x5 x6 2048 (v1_at1 x3 x5 x7 x9) (v2_at1 x4 x6 x8 x10) b n _ rfl, preCat_eq]
  exact sigmoid_host _

theorem gate_g (x0 x1 : FVec Ideal S4096x2048 .f32) (x3 x5 x7 x9 : FVec Ideal S2048x4096 .f32) (x4 x6 x8 x10 : FVec Ideal S2048 .f32) (b : Fin 4096) (n : Fin 2048) :
    val_main_v23 (F := Ideal) x0 x1 x3 x4 x5 x6 x7 x8 x9 x10 (ix2 b n) = Ideal.tanh (pre x0 x1 x7 x8 b n) := by
  have e : idx_main_v22 (ix2 b n) = ix2 b (⟨4096 + n.val, by have := n.isLt; omega⟩ : Fin 8192) :=
    funext fun a => match a with | ⟨0, _⟩ => rfl | ⟨1, _⟩ => rfl
  rw [val_main_v23_apply, val_main_v22_apply, e,
    v7_at x0 x1 x3 x5 x7 x9 x4 x6 x8 x10 x7 x8 4096 (v1_at2 x3 x5 x7 x9) (v2_at2 x4 x6 x8 x10) b n _ rfl, preCat_eq]
  rfl

theorem gate_o (x0 x1 : FVec Ideal S4096x2048 .f32) (x3 x5 x7 x9 : FVec Ideal S2048x4096 .f32) (x4 x6 x8 x10 : FVec Ideal S2048 .f32) (b : Fin 4096) (n : Fin 2048) :
    val_main_v30 (F := Ideal) x0 x1 x3 x4 x5 x6 x7 x8 x9 x10 (ix2 b n) = Ideal.logistic (pre x0 x1 x9 x10 b n) := by
  have e : idx_main_v24 (ix2 b n) = ix2 b (⟨6144 + n.val, by have := n.isLt; omega⟩ : Fin 8192) :=
    funext fun a => match a with | ⟨0, _⟩ => rfl | ⟨1, _⟩ => rfl
  rw [val_main_v30_apply, val_main_v29_apply, val_main_cst_4_apply, val_main_v28_apply, val_main_v27_apply, val_main_cst_3_apply, val_main_v26_apply, val_main_v25_apply, val_main_v24_apply, e,
    v7_at x0 x1 x3 x5 x7 x9 x4 x6 x8 x10 x9 x10 6144 (v1_at3 x3 x5 x7 x9) (v2_at3 x4 x6 x8 x10) b n _ rfl, preCat_eq]
  exact sigmoid_host _

/-- The reference's new cell value at `(b, n)`. -/
theorem cell_at (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (b : Fin 4096) (n : Fin 2048) :
    val_main_v33 (F := Ideal) x0 x1 x2 x3 x4 x5 x6 x7 x8 x9 x10 (ix2 b n) = cellAt x0 x1 x2 x3 x4 x5 x6 x7 x8 b n := by
  rw [val_main_v33_apply, val_main_v31_apply, val_main_v32_apply, gate_f, gate_i, gate_g]
  rfl

/-- The reference's new hidden value at `(b, n)`. -/
theorem hidden_at (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) (b : Fin 4096) (n : Fin 2048) :
    val_main_v35 (F := Ideal) x0 x1 x2 x3 x4 x5 x6 x7 x8 x9 x10 (ix2 b n) = hiddenAt x0 x1 x2 x3 x4 x5 x6 x7 x8 x9 x10 b n := by
  rw [val_main_v35_apply, val_main_v34_apply, gate_o, cell_at]
  rfl

/-- The reference's second result is the cell's new cell rows. -/
theorem ref_cell (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) :
    val_main_v33 (F := Ideal) x0 x1 x2 x3 x4 x5 x6 x7 x8 x9 x10 = cellOut x0 x1 x2 x3 x4 x5 x6 x7 x8 := by
  funext i
  obtain ⟨b, n, rfl⟩ : ∃ (b : Fin 4096) (n : Fin 2048), i = ix2 b n := ⟨i 0, i 1, eq_ix2 i⟩
  exact cell_at x0 x1 x2 x3 x4 x5 x6 x7 x8 x9 x10 b n

/-- The reference's first result is the cell's new hidden rows. -/
theorem ref_hidden (x0 x1 x2 : FVec Ideal S4096x2048 .f32) (x3 : FVec Ideal S2048x4096 .f32) (x4 : FVec Ideal S2048 .f32) (x5 : FVec Ideal S2048x4096 .f32) (x6 : FVec Ideal S2048 .f32) (x7 : FVec Ideal S2048x4096 .f32) (x8 : FVec Ideal S2048 .f32) (x9 : FVec Ideal S2048x4096 .f32) (x10 : FVec Ideal S2048 .f32) :
    val_main_v35 (F := Ideal) x0 x1 x2 x3 x4 x5 x6 x7 x8 x9 x10 = hiddenOut x0 x1 x2 x3 x4 x5 x6 x7 x8 x9 x10 := by
  funext i
  obtain ⟨b, n, rfl⟩ : ∃ (b : Fin 4096) (n : Fin 2048), i = ix2 b n := ⟨i 0, i 1, eq_ix2 i⟩
  exact hidden_at x0 x1 x2 x3 x4 x5 x6 x7 x8 x9 x10 b n

end Cert.ReferenceIdeal.RefValue

end
-- ==== Proof.lean ====
/-
  The certificate of the LSTM cell step: the kernel program as printed and its idealization both run to the end
  without a fault and leave their eleven arguments unchanged; so does the idealized reference; the idealization
  rewrote nothing; and, over the extended reals, from memories that agree on the arguments, the idealized kernel
  and the idealized reference end with equal results.

  Both programs compute, at batch row `b` and unit `n`,
      new cell   = σ(f) · c + σ(i) · tanh(g),      new hidden = σ(o) · tanh(new cell),
  each gate's pre-activation being  Σ_k x(b,k)·W(n,k) + Σ_k h(b,k)·W(n,2048+k) + v(n).
  The kernel re-lays the four gates' weights into eight slabs of stacked columns, multiplies 512-row blocks of `x`
  and `h` by a slab in two products, adds them and the bias, and writes 512 × 256 blocks of the results; the
  reference multiplies the rows `[x | h]` by the four weight matrices stacked, in one product with 4096 terms per
  entry. The one law between them is that a sum of 4096 terms is the sum of its two halves, which holds for extended
  reals whatever the terms are; no finiteness of the inputs is used.
-/
import proofs.«153864_j67800353735261_2_alg».proof.Defs
import proofs.«153864_j67800353735261_2_alg».proof.Proof.Gen.Kernel
import proofs.«153864_j67800353735261_2_alg».proof.Proof.Gen.Kernel.Skeleton
import proofs.«153864_j67800353735261_2_alg».proof.Proof.Gen.Kernel.Launch
import proofs.«153864_j67800353735261_2_alg».proof.Proof.Gen.Kernel.Points
import proofs.«153864_j67800353735261_2_alg».proof.Proof.Gen.KernelIdeal
import proofs.«153864_j67800353735261_2_alg».proof.Proof.Gen.KernelIdeal.Skeleton
import proofs.«153864_j67800353735261_2_alg».proof.Proof.Gen.KernelIdeal.Launch
import proofs.«153864_j67800353735261_2_alg».proof.Proof.Gen.KernelIdeal.Points
import proofs.«153864_j67800353735261_2_alg».proof.Proof.Gen.ReferenceIdeal
import proofs.«153864_j67800353735261_2_alg».proof.Proof.Gen.Pre_finite_inputs
import proofs.«153864_j67800353735261_2_alg».proof.Proof.Gen.ReferenceIdeal.Run
import proofs.«153864_j67800353735261_2_alg».proof.Proof.Gen.ReferenceIdeal.Read
import proofs.«153864_j67800353735261_2_alg».proof.Proof.KernelRun
import proofs.«153864_j67800353735261_2_alg».proof.Proof.KernelIdealOperands
import proofs.«153864_j67800353735261_2_alg».proof.Proof.RefIsCell
import Idealize.ShloMosaic.Adequacy
import Idealize.ShloMosaic.Init

noncomputable section

namespace Cert.Proof

open Idealize.ShloMosaic Idealize.SL.Sem

/-- The kernel program as printed: its frame, at the word-level instance. -/
theorem frame_kernel : @Cert.frame_Kernel Cert.Kernel.Gen.facts Cert.Pre_finite_inputs.Gen.facts :=
  fun m ρ _ => Cert.Kernel.Cell.frame m ρ

/-- The idealized kernel program: its frame, over the extended reals. -/
theorem frame_kernelIdeal : @Cert.frame_KernelIdeal Cert.KernelIdeal.Gen.facts Cert.Pre_finite_inputs.Gen.facts :=
  fun m ρ _ => Cert.KernelIdeal.Cell.frame m ρ

/-- The idealized reference: its run, with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the cell step's new hidden rows and new cell rows of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.LstmCell.hiddenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.LstmCell.cellOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Cell.run m ρ (fun c => Cert.KernelIdeal.Cell.operands m c), ?_⟩
  refine (θ_run Cert.ReferenceIdeal.defs _ _).mono (fun r h c => ⟨(h c).1.trans ?_, (h c).2.1.trans ?_, (h c).2.2⟩)
    (Cert.ReferenceIdeal.Value.run (F := Ideal) m' ρ')
  · rw [Cert.ReferenceIdeal.Read.val_main_v35_eq, Cert.ReferenceIdeal.RefValue.ref_hidden,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
  · refine (Cert.ReferenceIdeal.Read.val_main_v33_eq _ _ _ _ _ _ _ _ _ _ _).trans ?_
    rw [Cert.ReferenceIdeal.RefValue.ref_cell,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
